-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x600000 32) (main_arg2 : FVec F S128x128 .f32) (main_arg3 : FVec F S128 .f32) (main_arg4 : FVec F S128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S2000x128 : Shape := ⟨2, ![2000, 128]⟩
abbrev S700000x128 : Shape := ⟨2, ![700000, 128]⟩
abbrev S1x128 : Shape := ⟨2, ![1, 128]⟩

abbrev nBuf : Space → Nat
  | .hbm => 80
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100000, .i32⟩
  | .hbm, ⟨7, _⟩ => ⟨S1x600000, .i32⟩
  | .hbm, ⟨8, _⟩ => ⟨S600000, .i32⟩
  | .hbm, ⟨9, _⟩ => ⟨S700000, .i32⟩
  | .hbm, ⟨10, _⟩ => ⟨S1x600000, .i32⟩
  | .hbm, ⟨11, _⟩ => ⟨S600000, .i32⟩
  | .hbm, ⟨12, _⟩ => ⟨S700000, .i32⟩
  | .hbm, ⟨13, _⟩ => ⟨S_, .f32⟩
  | .hbm, ⟨14, _⟩ => ⟨S700000, .f32⟩
  | .hbm, ⟨15, _⟩ => ⟨S_, .f32⟩
  | .hbm, ⟨16, _⟩ => ⟨S100000, .f32⟩
  | .hbm, ⟨17, _⟩ => ⟨S700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S700000, .i32⟩
  | .hbm, ⟨29, _⟩ => ⟨S700000, .i1⟩
  | .hbm, ⟨30, _⟩ => ⟨S_, .i32⟩
  | .hbm, ⟨31, _⟩ => ⟨S700000, .i32⟩
  | .hbm, ⟨32, _⟩ => ⟨S700000, .i32⟩
  | .hbm, ⟨33, _⟩ => ⟨S700000, .i32⟩
  | .hbm, ⟨34, _⟩ => ⟨S700000x1, .i32⟩
  | .hbm, ⟨35, _⟩ => ⟨S700000, .f32⟩
  | .hbm, ⟨36, _⟩ => ⟨S_, .i32⟩
  | .hbm, ⟨37, _⟩ => ⟨S700000, .i32⟩
  | .hbm, ⟨38, _⟩ => ⟨S700000, .i1⟩
  | .hbm, ⟨39, _⟩ => ⟨S_, .i32⟩
  | .hbm, ⟨40, _⟩ => ⟨S700000, .i32⟩
  | .hbm, ⟨41, _⟩ => ⟨S700000, .i32⟩
  | .hbm, ⟨42, _⟩ => ⟨S700000, .i32⟩
  | .hbm, ⟨43, _⟩ => ⟨S700000x1, .i32⟩
  | .hbm, ⟨44, _⟩ => ⟨S700000, .f32⟩
  | .hbm, ⟨45, _⟩ => ⟨S700000, .f32⟩
  | .hbm, ⟨46, _⟩ => ⟨S100000x128, .f32⟩
  | .hbm, ⟨47, _⟩ => ⟨S_, .i32⟩
  | .hbm, ⟨48, _⟩ => ⟨S700000, .i32⟩
  | .hbm, ⟨49, _⟩ => ⟨S700000, .i1⟩
  | .hbm, ⟨50, _⟩ => ⟨S_, .i32⟩
  | .hbm, ⟨51, _⟩ => ⟨S700000, .i32⟩
  | .hbm, ⟨52, _⟩ => ⟨S700000, .i32⟩
  | .hbm, ⟨53, _⟩ => ⟨S700000, .i32⟩
  | .hbm, ⟨54, _⟩ => ⟨S700000x1, .i32⟩
  | .hbm, ⟨55, _⟩ => ⟨S700000x128, .f32⟩
  | .hbm, ⟨56, _⟩ => ⟨S700000x1, .f32⟩
  | .hbm, ⟨57, _⟩ => ⟨S700000x128, .f32⟩
  | .hbm, ⟨58, _⟩ => ⟨S700000x128, .f32⟩
  | .hbm, ⟨59, _⟩ => ⟨S_, .f32⟩
  | .hbm, ⟨60, _⟩ => ⟨S100000x128, .f32⟩
  | .hbm, ⟨61, _⟩ => ⟨S700000x1, .i32⟩
  | .hbm, ⟨62, _⟩ => ⟨S100000x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S_, .f32⟩
  | .hbm, ⟨69, _⟩ => ⟨S1x128, .f32⟩
  | .hbm, ⟨70, _⟩ => ⟨S1x128, .f32⟩
  | .hbm, ⟨71, _⟩ => ⟨S_, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S_, .f32⟩
  | .hbm, ⟨77, _⟩ => ⟨S1x128, .f32⟩
  | .hbm, ⟨78, _⟩ => ⟨S1x128, .f32⟩
  | .hbm, ⟨79, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S2000x128, .f32⟩
  | .local _ .vmem, ⟨18, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47_0 : Ref sig .tc := ⟨.hbm, 66, rfl⟩
abbrev main_v47_1 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S2000x128_S2000x128 : S2000x128.ShapeCasts S2000x128
  shapeCasts_S1x128_S1x128 : S1x128.ShapeCasts S1x128
  broadcasts_S1x128_S2000x128 : S1x128.Broadcasts S2000x128
  reduces_S2000x128_S128 : S2000x128.Reduces [0] S128
  bcast_S_S1x128 : S_.BroadcastsInDim S1x128 (![] : Fin 0 → Fin S1x128.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S2000x128_S128x128_S2000x128_1_0_0_1_n_n_wf : DotDims.WF S2000x128 S128x128 S2000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v43) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v56) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩

abbrev nBuf : Space → Nat
  | .hbm => 99
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100000, .i32⟩
  | .hbm, ⟨7, _⟩ => ⟨S1x600000, .i32⟩
  | .hbm, ⟨8, _⟩ => ⟨S600000, .i32⟩
  | .hbm, ⟨9, _⟩ => ⟨S700000, .i32⟩
  | .hbm, ⟨10, _⟩ => ⟨S1x600000, .i32⟩
  | .hbm, ⟨11, _⟩ => ⟨S600000, .i32⟩
  | .hbm, ⟨12, _⟩ => ⟨S700000, .i32⟩
  | .hbm, ⟨13, _⟩ => ⟨S_, .f32⟩
  | .hbm, ⟨14, _⟩ => ⟨S700000, .f32⟩
  | .hbm, ⟨15, _⟩ => ⟨S_, .f32⟩
  | .hbm, ⟨16, _⟩ => ⟨S100000, .f32⟩
  | .hbm, ⟨17, _⟩ => ⟨S700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S700000, .i32⟩
  | .hbm, ⟨29, _⟩ => ⟨S700000, .i1⟩
  | .hbm, ⟨30, _⟩ => ⟨S_, .i32⟩
  | .hbm, ⟨31, _⟩ => ⟨S700000, .i32⟩
  | .hbm, ⟨32, _⟩ => ⟨S700000, .i32⟩
  | .hbm, ⟨33, _⟩ => ⟨S700000, .i32⟩
  | .hbm, ⟨34, _⟩ => ⟨S700000x1, .i32⟩
  | .hbm, ⟨35, _⟩ => ⟨S700000, .f32⟩
  | .hbm, ⟨36, _⟩ => ⟨S_, .i32⟩
  | .hbm, ⟨37, _⟩ => ⟨S700000, .i32⟩
  | .hbm, ⟨38, _⟩ => ⟨S700000, .i1⟩
  | .hbm, ⟨39, _⟩ => ⟨S_, .i32⟩
  | .hbm, ⟨40, _⟩ => ⟨S700000, .i32⟩
  | .hbm, ⟨41, _⟩ => ⟨S700000, .i32⟩
  | .hbm, ⟨42, _⟩ => ⟨S700000, .i32⟩
  | .hbm, ⟨43, _⟩ => ⟨S700000x1, .i32⟩
  | .hbm, ⟨44, _⟩ => ⟨S700000, .f32⟩
  | .hbm, ⟨45, _⟩ => ⟨S700000, .f32⟩
  | .hbm, ⟨46, _⟩ => ⟨S100000x128, .f32⟩
  | .hbm, ⟨47, _⟩ => ⟨S_, .i32⟩
  | .hbm, ⟨48, _⟩ => ⟨S700000, .i32⟩
  | .hbm, ⟨49, _⟩ => ⟨S700000, .i1⟩
  | .hbm, ⟨50, _⟩ => ⟨S_, .i32⟩
  | .hbm, ⟨51, _⟩ => ⟨S700000, .i32⟩
  | .hbm, ⟨52, _⟩ => ⟨S700000, .i32⟩
  | .hbm, ⟨53, _⟩ => ⟨S700000, .i32⟩
  | .hbm, ⟨54, _⟩ => ⟨S700000x1, .i32⟩
  | .hbm, ⟨55, _⟩ => ⟨S700000x128, .f32⟩
  | .hbm, ⟨56, _⟩ => ⟨S700000x1, .f32⟩
  | .hbm, ⟨57, _⟩ => ⟨S700000x128, .f32⟩
  | .hbm, ⟨58, _⟩ => ⟨S700000x128, .f32⟩
  | .hbm, ⟨59, _⟩ => ⟨S_, .f32⟩
  | .hbm, ⟨60, _⟩ => ⟨S100000x128, .f32⟩
  | .hbm, ⟨61, _⟩ => ⟨S700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S128, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S_, .f32⟩
  | .hbm, ⟨87, _⟩ => ⟨S128, .f32⟩
  | .hbm, ⟨88, _⟩ => ⟨S128, .f32⟩
  | .hbm, ⟨89, _⟩ => ⟨S128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | .hbm, ⟨96, _⟩ => ⟨S_, .f32⟩
  | .hbm, ⟨97, _⟩ => ⟨S100000x128, .f32⟩
  | .hbm, ⟨98, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call1_cst : Ref sig .tc := ⟨.hbm, 96, rfl⟩
abbrev main_call1_v0 : Ref sig .tc := ⟨.hbm, 97, rfl⟩
abbrev main_v72 : Ref sig .tc := ⟨.hbm, 98, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x128_S128x128_S100000x128_1_0_0_1_n_n_wf : DotDims.WF S100000x128 S128x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

class Facts : Prop extends Facts₀ where

variable [Facts]
-- ==== Proof.KernelRun.lean ====
/-
  The idealized kernel's run with its result named: every weakly fair execution of the program terminates,
  nothing faulting, with the result buffer holding what the last segment boundary's contents say it holds and
  the six argument arrays as launched. The boundary contents are the fold of the program's segments from the
  launch memory: host stretches apply their operations, a tiled region leaves each of its arrays at what its
  write-backs leave.
-/
import proofs.«127498_j87368224735831_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result buffer read off the last boundary's contents. -/
theorem run : θ_run defs (onTc (τ := τ) (main (F := F))) ⟨m, fun _ => 0, ρ⟩ (fun r => ∀ c : Dev nD,
      r.2.mem ((c.tc : Thread nD τ).loc main_v56) = W8 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v56 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Named

end
-- ==== Proof.Shared.lean ====
/-
  The host computation the two programs share, written once as named stages over the reference's shape and
  dimension records: the edge lists with self loops appended, the in-degree, its inverse square root where the
  degree is positive, the per-edge weight, and the weighted neighbour sum of a feature array; then the reference's
  closing stages (column mean, column variance about the mean, normalisation, affine map, rectifier).
-/
import proofs.«127498_j87368224735831_2_alg».proof.Proof.Gen.ReferenceIdeal

noncomputable section

namespace Cert.Shared

open Idealize.ShloMosaic Cert.ReferenceIdeal Cert.ReferenceIdeal.Facts₀

variable {F : FTy → Type} [FloatOps F]

/-- The source endpoints of the 600000 edges followed by the 100000 self loops. -/
def ids0 (e : (⟨S2x600000, .i32⟩ : BufTy).Contents (Elt F)) : (⟨S700000, .i32⟩ : BufTy).Contents (Elt F) :=
  concatenate S700000 0 [⟨S600000, (shapeCast _ (extractStridedSlice S1x600000 ![0, 0] e slices_S2x600000_S1x600000_0_0) shapeCasts_S1x600000_S600000)⟩, ⟨S100000, (iotaInDim S100000 32 0)⟩] concatenates_S600000_S100000_S700000_d0

/-- The target endpoints of the 600000 edges followed by the 100000 self loops. -/
def ids1 (e : (⟨S2x600000, .i32⟩ : BufTy).Contents (Elt F)) : (⟨S700000, .i32⟩ : BufTy).Contents (Elt F) :=
  concatenate S700000 0 [⟨S600000, (shapeCast _ (extractStridedSlice S1x600000 ![1, 0] e slices_S2x600000_S1x600000_1_0) shapeCasts_S1x600000_S600000)⟩, ⟨S100000, (iotaInDim S100000 32 0)⟩] concatenates_S600000_S100000_S700000_d0

/-- A negative node id counted from the end: `v + 100000` where `v < 0`, else `v`. -/
def wrap (v : (⟨S700000, .i32⟩ : BufTy).Contents (Elt F)) : (⟨S700000, .i32⟩ : BufTy).Contents (Elt F) :=
  select (cmpi .slt v (broadcastInDim S700000 ![] bcast_S_S700000 (constantI S_ 32 0#32))) (addi v (broadcastInDim S700000 ![] bcast_S_S700000 (constantI S_ 32 100000#32))) v

/-- A list of ids as a one-column array of start indices. -/
def col (v : (⟨S700000, .i32⟩ : BufTy).Contents (Elt F)) : (⟨S700000x1, .i32⟩ : BufTy).Contents (Elt F) :=
  broadcastInDim S700000x1 ![0] bcast_S700000_S700000x1_0 v

/-- The in-degree of every node, self loop included: ones added up at the target ids. -/
def deg (e : (⟨S2x600000, .i32⟩ : BufTy).Contents (Elt F)) : (⟨S100000, .f32⟩ : BufTy).Contents (Elt F) :=
  Host.scatterAdd scatter_S100000_S700000x1_S700000_n_0_0_1 (broadcastInDim S100000 ![] bcast_S_S100000 (constant S_ .f32 0x00000000#32)) (col (ids1 e)) (broadcastInDim S700000 ![] bcast_S_S700000 (constant S_ .f32 0x3F800000#32))

/-- `deg^(-1/2)` where the degree is positive, zero elsewhere. -/
def dinv (e : (⟨S2x600000, .i32⟩ : BufTy).Contents (Elt F)) : (⟨S100000, .f32⟩ : BufTy).Contents (Elt F) :=
  select (cmpf .ogt (deg e) (broadcastInDim S100000 ![] bcast_S_S100000 (constant S_ .f32 0x00000000#32))) (Host.rsqrt (deg e)) (broadcastInDim S100000 ![] bcast_S_S100000 (id (constant S_ .f32 0x00000000#32)))

/-- The weight of every edge: the product of its endpoints' inverse square-root degrees. -/
def norm (e : (⟨S2x600000, .i32⟩ : BufTy).Contents (Elt F)) : (⟨S700000, .f32⟩ : BufTy).Contents (Elt F) :=
  mulf (Host.gather gather_S100000_S700000x1_S700000_n_0_n_n_0_1_1 (dinv e) (col (wrap (ids0 e)))) (Host.gather gather_S100000_S700000x1_S700000_n_0_n_n_0_1_1 (dinv e) (col (wrap (ids1 e))))

/-- The weighted neighbour sum: row `ids0` of `h` times the edge's weight, added up at row `ids1`. -/
def agg (h : (⟨S100000x128, .f32⟩ : BufTy).Contents (Elt F)) (e : (⟨S2x600000, .i32⟩ : BufTy).Contents (Elt F)) : (⟨S100000x128, .f32⟩ : BufTy).Contents (Elt F) :=
  Host.scatterAdd scatter_S100000x128_S700000x1_S700000x128_1_0_0_1 (broadcastInDim S100000x128 ![] bcast_S_S100000x128 (constant S_ .f32 0x00000000#32)) (col (ids1 e)) (mulf (Host.gather gather_S100000x128_S700000x1_S700000x128_1_0_n_n_0_1_1128 h (col (wrap (ids0 e)))) (broadcastInDim S700000x128 ![0, 1] bcast_S700000x1_S700000x128_0_1 (broadcastInDim S700000x1 ![0] bcast_S700000_S700000x1_0 (norm e))))

/-- A length-128 vector repeated down the 100000 rows. -/
def rowB (v : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 v)

/-- The column mean: the column sum divided by 100000. -/
def refMean (a : (⟨S100000x128, .f32⟩ : BufTy).Contents (Elt F)) : (⟨S128, .f32⟩ : BufTy).Contents (Elt F) :=
  Host.divf (Host.reduceAdd a (constant S_ .f32 0x00000000#32) reducesTo_S100000x128_S128_d0 h_S_) (broadcastInDim S128 ![] bcast_S_S128 (constant S_ .f32 0x47C35000#32))

/-- The column variance about the mean: the column sum of squared deviations divided by 100000. -/
def refVar (a : (⟨S100000x128, .f32⟩ : BufTy).Contents (Elt F)) : (⟨S128, .f32⟩ : BufTy).Contents (Elt F) :=
  Host.divf (Host.reduceAdd (mulf (subf a (rowB (refMean a))) (subf a (rowB (refMean a)))) (constant S_ .f32 0x00000000#32) reducesTo_S100000x128_S128_d0 h_S_) (broadcastInDim S128 ![] bcast_S_S128 (constant S_ .f32 0x47C35000#32))

/-- The reference's closing stages on the biased neighbour sum `a`: normalise each column by its mean and variance,
    scale by `g`, shift by `be`, and clamp below at zero. -/
def refOut (a : (⟨S100000x128, .f32⟩ : BufTy).Contents (Elt F)) (g be : (⟨S128, .f32⟩ : BufTy).Contents (Elt F)) : (⟨S100000x128, .f32⟩ : BufTy).Contents (Elt F) :=
  maximumf (addf (mulf (mulf (rowB g) (subf a (rowB (refMean a)))) (rowB (Host.rsqrt (addf (refVar a) (broadcastInDim S128 ![] bcast_S_S128 (constant S_ .f32 0x3727C5AC#32)))))) (rowB be)) (broadcastInDim S100000x128 ![] bcast_S_S100000x128 (constant S_ .f32 0x00000000#32))

/-- The whole reference as one function of its six arguments. -/
def refAll (x : (⟨S100000x128, .f32⟩ : BufTy).Contents (Elt F)) (e : (⟨S2x600000, .i32⟩ : BufTy).Contents (Elt F)) (w : (⟨S128x128, .f32⟩ : BufTy).Contents (Elt F))
    (b g be : (⟨S128, .f32⟩ : BufTy).Contents (Elt F)) : (⟨S100000x128, .f32⟩ : BufTy).Contents (Elt F) :=
  refOut (addf (agg (Host.dotGeneral dot_S100000x128_S128x128_S100000x128_1_0_0_1_n_n none x w) e) (rowB b)) g be

end Cert.Shared

end
-- ==== Proof.KStages.lean ====
/-
  The idealized kernel's host stretches read back over an arbitrary valuation of the buffers: each buffer a later
  segment reads, as a function of the buffers the stretch itself reads. The first stretch is cut so that each
  concatenation stands first in its piece.
-/
import proofs.«127498_j87368224735831_2_alg».proof.Proof.Gen.KernelIdeal.Launch
import proofs.«127498_j87368224735831_2_alg».proof.Proof.Shared
import Idealize.ShloMosaic.Lib.StableHlo.Run
import Idealize.ShloMosaic.Lib.StableHlo.RunLoop

set_option maxRecDepth 16384

noncomputable section

namespace Cert.KernelIdeal.Stages

open Cert.KernelIdeal Cert.KernelIdeal.Gen Idealize.ShloMosaic Idealize.ShloMosaic.TcCoe Idealize.ShloMosaic.StableHlo

variable {F : FTy → Type} [FloatOps F]

/-- The first three operations: the node ids 0 … 99999 and the edges' source row. -/
abbrev opsA : List (HloOp τ sig (Elt F)) :=
  [ StableHlo.nullary main_v0 (iotaInDim S100000 32 0),
    StableHlo.unary main_arg1 main_v1 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v1 main_v2 rfl shapeCasts_S1x600000_S600000 ]
/-- The source ids with the self loops appended, then the edges' target row. -/
abbrev opsB : List (HloOp τ sig (Elt F)) :=
  [ StableHlo.binary main_v2 main_v0 main_v3 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)),
    StableHlo.unary main_arg1 main_v4 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v4 main_v5 rfl shapeCasts_S1x600000_S600000 ]
/-- The target ids with the self loops appended, the in-degree, and the two inputs of the guarded inverse square root. -/
abbrev opsC : List (HloOp τ sig (Elt F)) :=
  [ StableHlo.binary main_v5 main_v0 main_v6 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)),
    StableHlo.nullary main_cst (constant S_ .f32 0x3F800000#32),
    StableHlo.unary main_cst main_v7 (broadcastInDim S700000 ![] bcast_S_S700000 : (⟨S_, .f32⟩ : BufTy).Contents (Elt F) → (⟨S700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S700000x1 ![0] bcast_S700000_S700000x1_0 : (⟨S700000, .i32⟩ : BufTy).Contents (Elt F) → (⟨S700000x1, .i32⟩ : BufTy).Contents (Elt F)),
    StableHlo.ternary main_v8 main_v9 main_v7 main_v10 ((fun x i u => Host.scatterAdd scatter_S100000_S700000x1_S700000_n_0_0_1 x i u) : (⟨S100000, .f32⟩ : BufTy).Contents (Elt F) → (⟨S700000x1, .i32⟩ : BufTy).Contents (Elt F) → (⟨S700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32) ]

theorem hostOps0_cut : (hostOps0 : List (HloOp τ sig (Elt F))) = opsA ++ (opsB ++ opsC) := rfl

variable (V : Valuation τ sig (Elt F))

theorem A_v0 : after opsA V (Proc.devRef .tc main_v0) = iotaInDim S100000 32 0 := by after_results_simp <;> rfl
theorem A_v2 : after opsA V (Proc.devRef .tc main_v2) = shapeCast _ (extractStridedSlice S1x600000 ![0, 0] (V (Proc.devRef .tc main_arg1)) slices_S2x600000_S1x600000_0_0) shapeCasts_S1x600000_S600000 := by
  after_results_simp <;> rfl
theorem A_arg1 : after opsA V (Proc.devRef .tc main_arg1) = V (Proc.devRef .tc main_arg1) := by after_results_simp <;> rfl

theorem B_v3 : after opsB V (Proc.devRef .tc main_v3) = concatenate S700000 0 [⟨S600000, V (Proc.devRef .tc main_v2)⟩, ⟨S100000, V (Proc.devRef .tc main_v0)⟩] concatenates_S600000_S100000_S700000_d0 := by
  after_results_simp <;> rfl
theorem B_v5 : after opsB V (Proc.devRef .tc main_v5) = shapeCast _ (extractStridedSlice S1x600000 ![1, 0] (V (Proc.devRef .tc main_arg1)) slices_S2x600000_S1x600000_1_0) shapeCasts_S1x600000_S600000 := by
  after_results_simp <;> rfl
theorem B_v0 : after opsB V (Proc.devRef .tc main_v0) = V (Proc.devRef .tc main_v0) := by after_results_simp <;> rfl

theorem C_v6 : after opsC V (Proc.devRef .tc main_v6) = concatenate S700000 0 [⟨S600000, V (Proc.devRef .tc main_v5)⟩, ⟨S100000, V (Proc.devRef .tc main_v0)⟩] concatenates_S600000_S100000_S700000_d0 := by
  after_results_simp <;> rfl
theorem C_v3 : after opsC V (Proc.devRef .tc main_v3) = V (Proc.devRef .tc main_v3) := by after_results_simp <;> rfl
theorem C_v10 : after opsC V (Proc.devRef .tc main_v10) = Host.scatterAdd scatter_S100000_S700000x1_S700000_n_0_0_1 (broadcastInDim S100000 ![] bcast_S_S100000 (constant S_ .f32 0x00000000#32)) (broadcastInDim S700000x1 ![0] bcast_S700000_S700000x1_0 (concatenate S700000 0 [⟨S600000, V (Proc.devRef .tc main_v5)⟩, ⟨S100000, V (Proc.devRef .tc main_v0)⟩] concatenates_S600000_S100000_S700000_d0)) (broadcastInDim S700000 ![] bcast_S_S700000 (constant S_ .f32 0x3F800000#32)) := by
  after_results_simp <;> rfl
theorem C_v12 : after opsC V (Proc.devRef .tc main_v12) = cmpf .ogt (after opsC V (Proc.devRef .tc main_v10)) (broadcastInDim S100000 ![] bcast_S_S100000 (constant S_ .f32 0x00000000#32)) := by
  after_results_simp <;> rfl
theorem C_v13 : after opsC V (Proc.devRef .tc main_v13) = Host.rsqrt (after opsC V (Proc.devRef .tc main_v10)) := by
  after_results_simp <;> rfl
theorem C_cst2 : after opsC V (Proc.devRef .tc main_cst_2) = constant S_ .f32 0x00000000#32 := by after_results_simp <;> rfl

/-- The first stretch as its three pieces in turn. -/
theorem after_hostOps0 : after hostOps0 V = after opsC (after opsB (after opsA V)) := by
  rw [hostOps0_cut, after_append, after_append]

theorem H0_v3 : after hostOps0 V (Proc.devRef .tc main_v3) = Cert.Shared.ids0 (V (Proc.devRef .tc main_arg1)) := by
  rw [after_hostOps0, C_v3, B_v3, A_v2, A_v0]; rfl
theorem H0_v6 : after hostOps0 V (Proc.devRef .tc main_v6) = Cert.Shared.ids1 (V (Proc.devRef .tc main_arg1)) := by
  rw [after_hostOps0, C_v6, B_v5, B_v0, A_arg1, A_v0]; rfl
theorem H0_v10 : after hostOps0 V (Proc.devRef .tc main_v10) = Cert.Shared.deg (V (Proc.devRef .tc main_arg1)) := by
  rw [after_hostOps0, C_v10, B_v5, B_v0, A_arg1, A_v0]; rfl
theorem H0_v12 : after hostOps0 V (Proc.devRef .tc main_v12) = cmpf .ogt (Cert.Shared.deg (V (Proc.devRef .tc main_arg1))) (broadcastInDim S100000 ![] bcast_S_S100000 (constant S_ .f32 0x00000000#32)) := by
  rw [after_hostOps0, C_v12, ← after_hostOps0, H0_v10]
theorem H0_v13 : after hostOps0 V (Proc.devRef .tc main_v13) = Host.rsqrt (Cert.Shared.deg (V (Proc.devRef .tc main_arg1))) := by
  rw [after_hostOps0, C_v13, ← after_hostOps0, H0_v10]
theorem H0_cst2 : after hostOps0 V (Proc.devRef .tc main_cst_2) = constant S_ .f32 0x00000000#32 := by
  rw [after_hostOps0, C_cst2]

/-! The guarded inverse square root (an outlined call of three operations). -/
theorem H01_v14 : after hostOps0_1 V (Proc.devRef .tc main_v14) = select (V (Proc.devRef .tc main_v12)) (V (Proc.devRef .tc main_v13)) (broadcastInDim S100000 ![] bcast_S_S100000 (id (V (Proc.devRef .tc main_cst_2)))) := by
  after_results_simp <;> (try simp only [TRef.toBuf, TRef.ofBuf, cast_eq]) <;> rfl
theorem H01_v3 : after hostOps0_1 V (Proc.devRef .tc main_v3) = V (Proc.devRef .tc main_v3) := by after_results_simp <;> rfl
theorem H01_v6 : after hostOps0_1 V (Proc.devRef .tc main_v6) = V (Proc.devRef .tc main_v6) := by after_results_simp <;> rfl

/-! The edge weights. -/
theorem H02_v29 : after hostOps0_2 V (Proc.devRef .tc main_v29) = mulf (Host.gather gather_S100000_S700000x1_S700000_n_0_n_n_0_1_1 (V (Proc.devRef .tc main_v14)) (Cert.Shared.col (Cert.Shared.wrap (V (Proc.devRef .tc main_v3))))) (Host.gather gather_S100000_S700000x1_S700000_n_0_n_n_0_1_1 (V (Proc.devRef .tc main_v14)) (Cert.Shared.col (Cert.Shared.wrap (V (Proc.devRef .tc main_v6))))) := by
  after_results_simp <;> rfl
theorem H02_v3 : after hostOps0_2 V (Proc.devRef .tc main_v3) = V (Proc.devRef .tc main_v3) := by after_results_simp <;> rfl
theorem H02_v6 : after hostOps0_2 V (Proc.devRef .tc main_v6) = V (Proc.devRef .tc main_v6) := by after_results_simp <;> rfl

/-! The weighted neighbour sum and the three parameter rows. -/
theorem H1_v43 : after hostOps1 V (Proc.devRef .tc main_v43) = Host.scatterAdd scatter_S100000x128_S700000x1_S700000x128_1_0_0_1 (broadcastInDim S100000x128 ![] bcast_S_S100000x128 (constant S_ .f32 0x00000000#32)) (Cert.Shared.col (V (Proc.devRef .tc main_v6))) (mulf (Host.gather gather_S100000x128_S700000x1_S700000x128_1_0_n_n_0_1_1128 (V (Proc.devRef .tc main_v30)) (Cert.Shared.col (Cert.Shared.wrap (V (Proc.devRef .tc main_v3))))) (broadcastInDim S700000x128 ![0, 1] bcast_S700000x1_S700000x128_0_1 (broadcastInDim S700000x1 ![0] bcast_S700000_S700000x1_0 (V (Proc.devRef .tc main_v29))))) := by
  after_results_simp <;> rfl
theorem H1_v44 : after hostOps1 V (Proc.devRef .tc main_v44) = shapeCast _ (V (Proc.devRef .tc main_arg3)) shapeCasts_S128_S1x128 := by after_results_simp <;> rfl
theorem H1_v45 : after hostOps1 V (Proc.devRef .tc main_v45) = shapeCast _ (V (Proc.devRef .tc main_arg4)) shapeCasts_S128_S1x128 := by after_results_simp <;> rfl
theorem H1_v46 : after hostOps1 V (Proc.devRef .tc main_v46) = shapeCast _ (V (Proc.devRef .tc main_arg5)) shapeCasts_S128_S1x128 := by after_results_simp <;> rfl

/-! The mean and the clamped variance from the two column sums. -/
theorem H2_v49 : after hostOps2 V (Proc.devRef .tc main_v49) = Host.divf (V (Proc.devRef .tc main_v47_0)) (broadcastInDim S1x128 ![] bcast_S_S1x128 (constant S_ .f32 0x47C35000#32)) := by
  after_results_simp <;> rfl
theorem H2_v55 : after hostOps2 V (Proc.devRef .tc main_v55) = maximumf (subf (Host.divf (V (Proc.devRef .tc main_v47_1)) (broadcastInDim S1x128 ![] bcast_S_S1x128 (constant S_ .f32 0x47C35000#32))) (mulf (after hostOps2 V (Proc.devRef .tc main_v49)) (after hostOps2 V (Proc.devRef .tc main_v49)))) (broadcastInDim S1x128 ![] bcast_S_S1x128 (constant S_ .f32 0x00000000#32)) := by
  after_results_simp <;> rfl
theorem H2_v43 : after hostOps2 V (Proc.devRef .tc main_v43) = V (Proc.devRef .tc main_v43) := by after_results_simp <;> rfl
theorem H2_v44 : after hostOps2 V (Proc.devRef .tc main_v44) = V (Proc.devRef .tc main_v44) := by after_results_simp <;> rfl
theorem H2_v45 : after hostOps2 V (Proc.devRef .tc main_v45) = V (Proc.devRef .tc main_v45) := by after_results_simp <;> rfl
theorem H2_v46 : after hostOps2 V (Proc.devRef .tc main_v46) = V (Proc.devRef .tc main_v46) := by after_results_simp <;> rfl

/-! Buffers the first three stretches leave as they were: the float arguments. -/
theorem H0_main_arg0 : after hostOps0 V (Proc.devRef .tc main_arg0) = V (Proc.devRef .tc main_arg0) := by after_results_simp <;> rfl
theorem H01_main_arg0 : after hostOps0_1 V (Proc.devRef .tc main_arg0) = V (Proc.devRef .tc main_arg0) := by after_results_simp <;> rfl
theorem H02_main_arg0 : after hostOps0_2 V (Proc.devRef .tc main_arg0) = V (Proc.devRef .tc main_arg0) := by after_results_simp <;> rfl
theorem H0_main_arg2 : after hostOps0 V (Proc.devRef .tc main_arg2) = V (Proc.devRef .tc main_arg2) := by after_results_simp <;> rfl
theorem H01_main_arg2 : after hostOps0_1 V (Proc.devRef .tc main_arg2) = V (Proc.devRef .tc main_arg2) := by after_results_simp <;> rfl
theorem H02_main_arg2 : after hostOps0_2 V (Proc.devRef .tc main_arg2) = V (Proc.devRef .tc main_arg2) := by after_results_simp <;> rfl
theorem H0_main_arg3 : after hostOps0 V (Proc.devRef .tc main_arg3) = V (Proc.devRef .tc main_arg3) := by after_results_simp <;> rfl
theorem H01_main_arg3 : after hostOps0_1 V (Proc.devRef .tc main_arg3) = V (Proc.devRef .tc main_arg3) := by after_results_simp <;> rfl
theorem H02_main_arg3 : after hostOps0_2 V (Proc.devRef .tc main_arg3) = V (Proc.devRef .tc main_arg3) := by after_results_simp <;> rfl
theorem H0_main_arg4 : after hostOps0 V (Proc.devRef .tc main_arg4) = V (Proc.devRef .tc main_arg4) := by after_results_simp <;> rfl
theorem H01_main_arg4 : after hostOps0_1 V (Proc.devRef .tc main_arg4) = V (Proc.devRef .tc main_arg4) := by after_results_simp <;> rfl
theorem H02_main_arg4 : after hostOps0_2 V (Proc.devRef .tc main_arg4) = V (Proc.devRef .tc main_arg4) := by after_results_simp <;> rfl
theorem H0_main_arg5 : after hostOps0 V (Proc.devRef .tc main_arg5) = V (Proc.devRef .tc main_arg5) := by after_results_simp <;> rfl
theorem H01_main_arg5 : after hostOps0_1 V (Proc.devRef .tc main_arg5) = V (Proc.devRef .tc main_arg5) := by after_results_simp <;> rfl
theorem H02_main_arg5 : after hostOps0_2 V (Proc.devRef .tc main_arg5) = V (Proc.devRef .tc main_arg5) := by after_results_simp <;> rfl

/-- The three stretches before the first tiled region, in turn. -/
abbrev pre (V : Valuation τ sig (Elt F)) : Valuation τ sig (Elt F) := after hostOps0_2 (after hostOps0_1 (after hostOps0 V))

theorem pre_v3 : pre V (Proc.devRef .tc main_v3) = Cert.Shared.ids0 (V (Proc.devRef .tc main_arg1)) := by
  rw [pre, H02_v3, H01_v3, H0_v3]
theorem pre_v6 : pre V (Proc.devRef .tc main_v6) = Cert.Shared.ids1 (V (Proc.devRef .tc main_arg1)) := by
  rw [pre, H02_v6, H01_v6, H0_v6]
/-- The guarded inverse square root of the degree after the first two stretches. -/
theorem pre_v14 : after hostOps0_1 (after hostOps0 V) (Proc.devRef .tc main_v14) = Cert.Shared.dinv (V (Proc.devRef .tc main_arg1)) := by
  rw [H01_v14, H0_v12, H0_v13, H0_cst2]; rfl
theorem pre_v29 : pre V (Proc.devRef .tc main_v29) = Cert.Shared.norm (V (Proc.devRef .tc main_arg1)) := by
  rw [pre, H02_v29, pre_v14, H01_v3, H01_v6, H0_v3, H0_v6]; rfl
theorem pre_main_arg0 : pre V (Proc.devRef .tc main_arg0) = V (Proc.devRef .tc main_arg0) := by rw [pre, H02_main_arg0, H01_main_arg0, H0_main_arg0]
theorem pre_main_arg2 : pre V (Proc.devRef .tc main_arg2) = V (Proc.devRef .tc main_arg2) := by rw [pre, H02_main_arg2, H01_main_arg2, H0_main_arg2]
theorem pre_main_arg3 : pre V (Proc.devRef .tc main_arg3) = V (Proc.devRef .tc main_arg3) := by rw [pre, H02_main_arg3, H01_main_arg3, H0_main_arg3]
theorem pre_main_arg4 : pre V (Proc.devRef .tc main_arg4) = V (Proc.devRef .tc main_arg4) := by rw [pre, H02_main_arg4, H01_main_arg4, H0_main_arg4]
theorem pre_main_arg5 : pre V (Proc.devRef .tc main_arg5) = V (Proc.devRef .tc main_arg5) := by rw [pre, H02_main_arg5, H01_main_arg5, H0_main_arg5]

/-- The weighted neighbour sum after the stretch between the first two regions, from the product array and the
    buffers the prefix left. -/
theorem H1_agg (h : (⟨S100000x128, .f32⟩ : BufTy).Contents (Elt F)) (e : (⟨S2x600000, .i32⟩ : BufTy).Contents (Elt F))
    (h30 : V (Proc.devRef .tc main_v30) = h) (h3 : V (Proc.devRef .tc main_v3) = Cert.Shared.ids0 e) (h6 : V (Proc.devRef .tc main_v6) = Cert.Shared.ids1 e)
    (h29 : V (Proc.devRef .tc main_v29) = Cert.Shared.norm e) :
    after hostOps1 V (Proc.devRef .tc main_v43) = Cert.Shared.agg h e := by
  rw [H1_v43, h30, h3, h6, h29]; rfl

end Cert.KernelIdeal.Stages

end
-- ==== Proof.Glue.lean ====
/-
  The idealized kernel's buffers at the boundaries before, between and after its tiled regions, read back to the
  launch contents of the arguments: the edge id lists, the edge weights, the parameter rows, and the weighted
  neighbour sum of whatever the first region leaves in its output array.
-/
import proofs.«127498_j87368224735831_2_alg».proof.Proof.Gen.KernelIdeal.Frame
import proofs.«127498_j87368224735831_2_alg».proof.Proof.KStages

set_option maxRecDepth 16384

noncomputable section

namespace Cert.KernelIdeal.Glue

open Cert.KernelIdeal Cert.KernelIdeal.Gen Cert.KernelIdeal.Stages Idealize.ShloMosaic Idealize.ShloMosaic.TcCoe Idealize.ShloMosaic.StableHlo

variable {F : FTy → Type} [FloatOps F]
variable (m : (ℓ : Loc nD τ sig) → Buf (Elt F) ℓ) (ρ : Dev nD → PrngReg) (c : Dev nD)

/-! ## At the first region's entry and exit -/

theorem V3_arg0 : V3 m ρ c main_arg0 = m ((c : Thread nD τ).loc main_arg0) := pre_main_arg0 (W0 m ρ c)
theorem V3_arg2 : V3 m ρ c main_arg2 = m ((c : Thread nD τ).loc main_arg2) := pre_main_arg2 (W0 m ρ c)

theorem W4_v3 : W4 m ρ c (Proc.devRef .tc main_v3) = Cert.Shared.ids0 (m ((c : Thread nD τ).loc main_arg1)) :=
  (W4_of_ne m ρ c main_v3 (by decide)).trans (pre_v3 (W0 m ρ c))
theorem W4_v6 : W4 m ρ c (Proc.devRef .tc main_v6) = Cert.Shared.ids1 (m ((c : Thread nD τ).loc main_arg1)) :=
  (W4_of_ne m ρ c main_v6 (by decide)).trans (pre_v6 (W0 m ρ c))
theorem W4_v29 : W4 m ρ c (Proc.devRef .tc main_v29) = Cert.Shared.norm (m ((c : Thread nD τ).loc main_arg1)) :=
  (W4_of_ne m ρ c main_v29 (by decide)).trans (pre_v29 (W0 m ρ c))
theorem W4_arg3 : W4 m ρ c (Proc.devRef .tc main_arg3) = m ((c : Thread nD τ).loc main_arg3) :=
  (W4_of_ne m ρ c main_arg3 (by decide)).trans (pre_main_arg3 (W0 m ρ c))
theorem W4_arg4 : W4 m ρ c (Proc.devRef .tc main_arg4) = m ((c : Thread nD τ).loc main_arg4) :=
  (W4_of_ne m ρ c main_arg4 (by decide)).trans (pre_main_arg4 (W0 m ρ c))
theorem W4_arg5 : W4 m ρ c (Proc.devRef .tc main_arg5) = m ((c : Thread nD τ).loc main_arg5) :=
  (W4_of_ne m ρ c main_arg5 (by decide)).trans (pre_main_arg5 (W0 m ρ c))

/-- The first region's output array at its exit is what its write-backs leave. -/
theorem W4_v30 : W4 m ρ c (Proc.devRef .tc main_v30) = (dat0 (V3 m ρ) c).arrAt 2 cfg0.N := W4_arr m ρ c 2

/-! ## At the second region's entry -/

/-- The weighted neighbour sum of the first region's output. -/
theorem V5_v43 (h : (⟨S100000x128, .f32⟩ : BufTy).Contents (Elt F)) (h30 : W4 m ρ c (Proc.devRef .tc main_v30) = h) :
    V5 m ρ c main_v43 = Cert.Shared.agg h (m ((c : Thread nD τ).loc main_arg1)) :=
  H1_agg (W4 m ρ c) h _ h30 (W4_v3 m ρ c) (W4_v6 m ρ c) (W4_v29 m ρ c)
theorem V5_v44 : V5 m ρ c main_v44 = shapeCast _ (m ((c : Thread nD τ).loc main_arg3)) shapeCasts_S128_S1x128 :=
  (H1_v44 (W4 m ρ c)).trans (by rw [W4_arg3])
theorem V5_v45 : V5 m ρ c main_v45 = shapeCast _ (m ((c : Thread nD τ).loc main_arg4)) shapeCasts_S128_S1x128 :=
  (H1_v45 (W4 m ρ c)).trans (by rw [W4_arg4])
theorem V5_v46 : V5 m ρ c main_v46 = shapeCast _ (m ((c : Thread nD τ).loc main_arg5)) shapeCasts_S128_S1x128 :=
  (H1_v46 (W4 m ρ c)).trans (by rw [W4_arg5])

/-! ## At the second region's exit: its inputs as entered, its outputs what the write-backs leave -/

theorem W6_v43 : W6 m ρ c (Proc.devRef .tc main_v43) = V5 m ρ c main_v43 :=
  (W6_arr m ρ c 0).trans (((dat1 (V5 m ρ) c).arrAt_in 0 rfl _).trans (A_eq1 (V5 m ρ) c 0))
theorem W6_v44 : W6 m ρ c (Proc.devRef .tc main_v44) = V5 m ρ c main_v44 :=
  (W6_arr m ρ c 1).trans (((dat1 (V5 m ρ) c).arrAt_in 1 rfl _).trans (A_eq1 (V5 m ρ) c 1))
theorem W6_v45 : W6 m ρ c (Proc.devRef .tc main_v45) = V5 m ρ c main_v45 := W6_of_ne m ρ c main_v45 (by decide)
theorem W6_v46 : W6 m ρ c (Proc.devRef .tc main_v46) = V5 m ρ c main_v46 := W6_of_ne m ρ c main_v46 (by decide)
theorem W6_v47_0 : W6 m ρ c (Proc.devRef .tc main_v47_0) = (dat1 (V5 m ρ) c).arrAt 2 cfg1.N := W6_arr m ρ c 2
theorem W6_v47_1 : W6 m ρ c (Proc.devRef .tc main_v47_1) = (dat1 (V5 m ρ) c).arrAt 3 cfg1.N := W6_arr m ρ c 3

/-! ## At the third region's entry and exit -/

theorem V7_v43 : V7 m ρ c main_v43 = V5 m ρ c main_v43 := (H2_v43 (W6 m ρ c)).trans (W6_v43 m ρ c)
theorem V7_v44 : V7 m ρ c main_v44 = V5 m ρ c main_v44 := (H2_v44 (W6 m ρ c)).trans (W6_v44 m ρ c)
theorem V7_v45 : V7 m ρ c main_v45 = V5 m ρ c main_v45 := (H2_v45 (W6 m ρ c)).trans (W6_v45 m ρ c)
theorem V7_v46 : V7 m ρ c main_v46 = V5 m ρ c main_v46 := (H2_v46 (W6 m ρ c)).trans (W6_v46 m ρ c)
/-- The mean: the first column sum divided by 100000. -/
theorem V7_v49 : V7 m ρ c main_v49 = Host.divf ((dat1 (V5 m ρ) c).arrAt 2 cfg1.N) (broadcastInDim S1x128 ![] bcast_S_S1x128 (constant S_ .f32 0x47C35000#32)) :=
  (H2_v49 (W6 m ρ c)).trans (by rw [W6_v47_0])
/-- The variance: the second column sum divided by 100000, less the squared mean, clamped below at zero. -/
theorem V7_v55 : V7 m ρ c main_v55 = maximumf (subf (Host.divf ((dat1 (V5 m ρ) c).arrAt 3 cfg1.N) (broadcastInDim S1x128 ![] bcast_S_S1x128 (constant S_ .f32 0x47C35000#32))) (mulf (V7 m ρ c main_v49) (V7 m ρ c main_v49))) (broadcastInDim S1x128 ![] bcast_S_S1x128 (constant S_ .f32 0x00000000#32)) :=
  (H2_v55 (W6 m ρ c)).trans (by rw [W6_v47_1])
/-- The result buffer at the end is what the third region's write-backs leave in its output array. -/
theorem W8_v56 : W8 m ρ c (Proc.devRef .tc main_v56) = (dat2 (V7 m ρ) c).arrAt 6 cfg2.N := W8_arr m ρ c 6

end Cert.KernelIdeal.Glue

end
-- ==== Proof.Spec.lean ====
/-
  What each of the three tiled stages computes, as whole-array functions on the extended reals, index by index:
  the product of a 100000 x 128 array with a 128 x 128 matrix; the column sums, and the column sums of squares, of
  an array shifted by a row; and the normalise / scale / shift / clamp map applied to every entry with per-column
  parameters.
-/
import Idealize.ShloMosaic.PureOps.Ideal
import Idealize.ShloMosaic.Lib.ValueIdx

noncomputable section

namespace Cert.Spec

open Idealize.ShloMosaic Idealize.ShloMosaic.ValueIdx
open scoped BigOperators

/-- A two-axis array of extended reals. -/
abbrev Arr (n0 n1 : Nat) : Type := (⟨2, ![n0, n1]⟩ : Shape).Idx → EReal

/-- `(x · w)[p, q] = Σ_k x[p, k] · w[k, q]`. -/
def matProd (x : Arr 100000 128) (w : Arr 128 128) : Arr 100000 128 :=
  fun i => ∑ k : Fin 128, x (ix2 (i 0) k) * w (ix2 k (i 1))

/-- `Σ_p (a[p, q] + b[0, q])`, as a one-row array. -/
def colSum (a : Arr 100000 128) (b : Arr 1 128) : Arr 1 128 :=
  fun j => ∑ p : Fin 100000, (a (ix2 p (j 1)) + b (ix2 0 (j 1)))

/-- `Σ_p (a[p, q] + b[0, q])²`, as a one-row array. -/
def colSumSq (a : Arr 100000 128) (b : Arr 1 128) : Arr 1 128 :=
  fun j => ∑ p : Fin 100000, (a (ix2 p (j 1)) + b (ix2 0 (j 1))) * (a (ix2 p (j 1)) + b (ix2 0 (j 1)))

/-- The small positive number added to the variance. -/
def eps : EReal := Ideal.ofBits .f32 0x3727C5AC#32

/-- `max (g[q] · ((a[p, q] + b[q]) − mu[q]) · rsqrt (var[q] + eps) + be[q]) 0`, the per-column parameters one-row arrays. -/
def bnRelu (a : Arr 100000 128) (b mu var g be : Arr 1 128) : Arr 100000 128 :=
  fun i => max ((g (ix2 0 (i 1)) * ((a i + b (ix2 0 (i 1))) - mu (ix2 0 (i 1)))) * Ideal.rsqrt (var (ix2 0 (i 1)) + eps)
    + be (ix2 0 (i 1))) 0

/-- An extended real that is a real number (neither infinity). -/
def IsReal (x : EReal) : Prop := ∃ r : ℝ, x = (r : EReal)

theorem IsReal.coe (r : ℝ) : IsReal (r : EReal) := ⟨r, rfl⟩
theorem IsReal.zero : IsReal (0 : EReal) := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
/-- A finite sum of real numbers is a real number. -/
theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

end Cert.Spec

end
-- ==== Proof.Region0.lean ====
/-
  The first tiled stage, read as one array. Its grid has 50 points. At point t the body is handed rows
  2000·t … 2000·t + 1999 of the 100000 x 128 array x and the whole 128 x 128 matrix w; it narrows both to bf16
  (the identity on extended reals), multiplies them into a zero accumulator, and stores the 2000 x 128 product,
  which is written back over rows 2000·t … 2000·t + 1999 of the output. Entry (r, q) of that product is
  Σ_k x[2000·t + r, k] · w[k, q], which is entry (2000·t + r, q) of the full product x · w; and row p of the
  output is written by point p / 2000. So whatever the three arrays hold when the stage is entered, the output
  array ends holding x · w, index by index.
-/
import proofs.«127498_j87368224735831_2_alg».proof.Proof.Gen.KernelIdeal.Frame
import proofs.«127498_j87368224735831_2_alg».proof.Proof.Spec
import Idealize.ShloMosaic.Lib.Pipeline.Value
import Idealize.ShloMosaic.Lib.ValueIdx
import Idealize.ShloMosaic.PureOps.Ideal.Laws

noncomputable section

namespace Cert.KernelIdeal.Region0

open Cert.KernelIdeal Cert.KernelIdeal.Gen Idealize.ShloMosaic Idealize.ShloMosaic.TcCoe Idealize.ShloMosaic.ValueIdx Idealize.ShloMosaic.Pipeline
open scoped BigOperators

/-! ## The tile product at an entry -/

/-- The left operand's row is the output's row, whatever the contraction position. -/
theorem lhs_row (j : S2000x128.Idx) (k : dot_S2000x128_S128x128_S2000x128_1_0_0_1_n_n.contr.Idx) :
    (dot_S2000x128_S128x128_S2000x128_1_0_0_1_n_n.lhsIdx j k 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

/-- The left operand's column is the contraction position. -/
theorem lhs_col (j : S2000x128.Idx) (k : dot_S2000x128_S128x128_S2000x128_1_0_0_1_n_n.contr.Idx) :
    (dot_S2000x128_S128x128_S2000x128_1_0_0_1_n_n.lhsIdx j k 1).val = (k ⟨0, by decide⟩).val :=
  dot_S2000x128_S128x128_S2000x128_1_0_0_1_n_n.lhsIdx_val_of_single rfl j k

/-- The right operand's row is the contraction position. -/
theorem rhs_row (j : S2000x128.Idx) (k : dot_S2000x128_S128x128_S2000x128_1_0_0_1_n_n.contr.Idx) :
    (dot_S2000x128_S128x128_S2000x128_1_0_0_1_n_n.rhsIdx j k 0).val = (k ⟨0, by decide⟩).val :=
  dot_S2000x128_S128x128_S2000x128_1_0_0_1_n_n.rhsIdx_val_of_single rfl j k

/-- The right operand's column is the output's column, whatever the contraction position. -/
theorem rhs_col (j : S2000x128.Idx) (k : dot_S2000x128_S128x128_S2000x128_1_0_0_1_n_n.contr.Idx) :
    (dot_S2000x128_S128x128_S2000x128_1_0_0_1_n_n.rhsIdx j k 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (r, q) of what the body stores, for any tile `x0` of x and any matrix `x1`: the narrowing to bf16 changes
    nothing on extended reals, the accumulator is zero, and the contraction runs over the 128 columns of `x0` against
    the 128 rows of `x1`: `Σ_k x0[r, k] · x1[k, q]`. -/
theorem pay_apply (x0 : Vec Ideal S2000x128 .f32) (x1 : Vec Ideal S128x128 .f32) (r : Fin 2000) (q : Fin 128) :
    k0_pay1 x0 x1 (ix2 r q) = ∑ k : Fin 128, x0 (ix2 r k) * x1 (ix2 k q) := by
  unfold k0_pay1
  refine (Ideal.matmul_constant_zero_apply dot_S2000x128_S128x128_S2000x128_1_0_0_1_n_n none _ _ (ix2 r q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r q) ((contrEquiv1 dot_S2000x128_S128x128_S2000x128_1_0_0_1_n_n 128 rfl rfl).symm k) = ix2 r k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 r q) ((contrEquiv1 dot_S2000x128_S128x128_S2000x128_1_0_0_1_n_n 128 rfl rfl).symm k) = ix2 k q := funext fun a => Fin.ext (by
    match a with
    | ⟨0, _⟩ => exact (rhs_row _ _).trans hk
    | ⟨1, _⟩ => exact rhs_col _ _)
  rw [el, er]
  rfl

/-! ## Which block each point sees -/

/-- At point t the tile of x and the tile of the output are both block (t, 0) — rows 2000·t onward, all 128
    columns — and the matrix's block is always (0, 0), the whole matrix: decided over the 50 points. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The two-axis offset (0, 0), as the constant-zero function. -/
theorem hz : (![0, 0] : Fin 2 → Nat) = fun _ => 0 := funext fun a => by fin_cases a <;> rfl

section
-- what the arrays hold when the stage is entered: arbitrary
variable (V : (c : Dev nD) → (b : Ref sig .tc) → Buf (Elt Ideal) ((c : Thread nD τ).loc b))

/-- Entry (r, k) of the tile of x at point t is x[2000·t + r, k]. -/
theorem xblk_apply (c : Dev nD) (t : Fin cfg0.N) (r : Fin 2000) (k : Fin 128) (p : Fin 100000)
    (hp : p.val = 2000 * t.val + r.val) :
    (iblk0 V c 0 t : Vec Ideal S2000x128 .f32) (ix2 r k) = (V c main_arg0 : S100000x128.Idx → EReal) (ix2 p k) := by
  obtain ⟨e0, e1, -, -, -, -⟩ := idx_facts t
  unfold iblk0
  rw [View.read_apply]
  show V c main_arg0 _ = V c main_arg0 _
  refine congrArg (V c main_arg0) ?_
  funext a
  apply Fin.ext
  match a with
  | ⟨0, _⟩ => show win0_0.index t (0 : Fin 2) * 2000 + 1 * r.val = p.val; rw [e0, hp]; omega
  | ⟨1, _⟩ => show win0_0.index t (1 : Fin 2) * 128 + 1 * k.val = k.val; rw [e1]; omega

/-- Entry (k, q) of the matrix's block at any point is w[k, q]. -/
theorem wblk_apply (c : Dev nD) (t : Fin cfg0.N) (k : Fin 128) (q : Fin 128) :
    (iblk0 V c 1 t : Vec Ideal S128x128 .f32) (ix2 k q) = (V c main_arg2 : S128x128.Idx → EReal) (ix2 k q) := by
  obtain ⟨-, -, e0, e1, -, -⟩ := idx_facts t
  unfold iblk0
  rw [View.read_apply]
  show V c main_arg2 _ = V c main_arg2 _
  refine congrArg (V c main_arg2) ?_
  funext a
  apply Fin.ext
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-! ## From the tiles to the array -/

/-- What point t writes back is rows 2000·t … 2000·t + 1999 of the full product x · w: entry (r, q) of the stored
    tile is `Σ_k x[2000·t + r, k] · w[k, q]`, and the output's block places it at row 2000·t + r, column q. -/
theorem flushed_eq (c : Dev nD) (t : Fin cfg0.N) :
    (dat0 (F := Ideal) V c).flushed 2 t
      = ((cfg0.win 2).blk t).view.read (Elt Ideal) (Cert.Spec.matProd (V c main_arg0) (V c main_arg2)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨-, -, -, -, e0, e1⟩ := idx_facts t
  funext j
  obtain ⟨r, q, rfl⟩ : ∃ (r : Fin 2000) (q : Fin 128), j = ix2 r q := ⟨j 0, j 1, eq_ix2 j⟩
  show k0_pay1 (iblk0 V c 0 t) (iblk0 V c 1 t) (ix2 r q)
    = Cert.Spec.matProd (V c main_arg0) (V c main_arg2) (((cfg0.win 2).blk t).view.emb (ix2 r q))
  refine (pay_apply (iblk0 V c 0 t) (iblk0 V c 1 t) r q).trans ?_
  have hrow : ((((cfg0.win 2).blk t).view.emb (ix2 r q)) 0 : Fin 100000).val = 2000 * t.val + r.val := by
    show win0_2.index t (0 : Fin 2) * 2000 + 1 * r.val = _; rw [e0]; omega
  have hcol : ((((cfg0.win 2).blk t).view.emb (ix2 r q)) 1 : Fin 128) = q := by
    apply Fin.ext
    show win0_2.index t (1 : Fin 2) * 128 + 1 * q.val = _; rw [e1]; omega
  unfold Cert.Spec.matProd
  refine Finset.sum_congr rfl fun k _ => ?_
  rw [xblk_apply V c t r k _ hrow, wblk_apply V c t k q, hcol]

/-- An index of the output lies in point t's block exactly when each coordinate lies in the block's range on its
    axis. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- Every index of the output is written back by some point: row p by point p / 2000 (below 50 since p is below
    100000), every column by every point. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, e0, e1⟩ := idx_facts t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; rw [e0, ht]; omega
  | ⟨1, _⟩ => show win0_2.index t (1 : Fin 2) * 128 ≤ (i 1).val ∧ (i 1).val < win0_2.index t (1 : Fin 2) * 128 + 128; rw [e1]; omega

/-- After the 50 points the output array holds the product x · w of the arrays the stage was entered with, whatever
    they were: each point writes its rows of the product, and the points' row ranges cover all 100000 rows. -/
theorem value (c : Dev nD) :
    (dat0 (F := Ideal) V c).arrAt 2 cfg0.N = Cert.Spec.matProd (V c main_arg0) (V c main_arg2) :=
  (dat0 (F := Ideal) V c).arrAt_eq_of_cover 2 (Cert.Spec.matProd (V c main_arg0) (V c main_arg2)) (fun t _ => flushed_eq V c t) cover

end

end Cert.KernelIdeal.Region0

end
-- ==== Proof.Region1.lean ====
/-
  The second tiled stage. It walks the 100000 x 128 array `A` in 50 blocks of 2000 rows, with the 1 x 128 row `b`
  resident, and keeps two 1 x 128 accumulators that stay in place from one grid point to the next: at the first point
  they are set to zero, and at every point `t` the block's rows, each shifted by `b`, are added up column by column
  into the first, and their squares into the second. So after point `t` the accumulators hold, at column `q`,
  `Σ_{p < 2000 (t + 1)} (A[p, q] + b[0, q])` and the same sum of squares: by induction on the point, splitting the rows
  below `2000 (t + 2)` into those below `2000 (t + 1)` and the next 2000. Both accumulators are written back once,
  after the last point, and their one block is the whole output array; there the bound is 100000, and the two sums are
  the column sums and the column sums of squares of the shifted array. Only commutativity and associativity of addition
  on the extended reals are used, so nothing is asked of the entries: the result holds for any contents the stage is
  entered with.
-/
import proofs.«127498_j87368224735831_2_alg».proof.Proof.Gen.KernelIdeal.Frame
import proofs.«127498_j87368224735831_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Cert.KernelIdeal Cert.KernelIdeal.Gen Idealize.ShloMosaic Idealize.ShloMosaic.ValueIdx Idealize.ShloMosaic.Pipeline
open Idealize.ShloMosaic.TcCoe
open scoped BigOperators

section Pieces
variable {F : FTy → Type} [FloatOps F]

theorem hz : (![0, 0] : Fin 2 → Nat) = fun _ => 0 := funext fun a => by fin_cases a <;> rfl

/-- At every grid point but the first, the body leaves in the first accumulator what it held plus the lane sums of the
    shifted block. -/
theorem out_B_2 (c : Dev nD) (i : grid1.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S2000x128 .f32) (x1 xo2 xo3 : Vec F S1x128 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  sl_unfold_words
  rw [View.canon_unit_zero hz]
  simp only [View.readAt_eq_ld, h1.read_unread, h2.read_unread, h3.read_unread, View.ld_unit_zero (S := S2000x128) hz,
    View.ld_unit_zero (S := S1x128) hz]

/-- and in the second what it held plus the lane sums of the squares. -/
theorem out_B_3 (c : Dev nD) (i : grid1.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S2000x128 .f32) (x1 xo2 xo3 : Vec F S1x128 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  sl_unfold_words
  rw [View.canon_unit_zero hz]
  simp only [View.readAt_eq_ld, h1.read_unread, h2.read_unread, h4.read_unread, View.ld_unit_zero (S := S2000x128) hz,
    View.ld_unit_zero (S := S1x128) hz]

/-- At the first grid point the body first stores zeros, reads them back, and leaves the zeros plus the lane sums. -/
theorem out_A_2 (c : Dev nD) (i : grid1.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S2000x128 .f32) (x1 : Vec F S1x128 .f32) :
    out1_A_2 c i a1 h1 a2 h2 a3 h3 a4 h4 hc x0 x1 = k1_pay4 x0 x1 (k1_pay1 (F := F)) := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread, View.ld_unit_zero (S := S2000x128) hz,
    View.ld_unit_zero (S := S1x128) hz]

theorem out_A_3 (c : Dev nD) (i : grid1.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S2000x128 .f32) (x1 : Vec F S1x128 .f32) :
    out1_A_3 c i a1 h1 a2 h2 a3 h3 a4 h4 hc x0 x1 = k1_pay5 x0 x1 (k1_pay2 (F := F)) := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread, View.ld_unit_zero (S := S2000x128) hz,
    View.ld_unit_zero (S := S1x128) hz]

end Pieces

section Payloads

/-- The source index of the lane reduction over column `q` with row `k` inserted is `(k, q)`. -/
theorem lift_eq (h : S2000x128.Reduces [0] S128) (q : Fin 128) (k : Fin 2000) :
    h.lift (ix1 q) k = ix2 k q := by
  funext a
  apply Fin.ext
  match a with
  | ⟨0, _⟩ => rfl
  | ⟨1, _⟩ => rfl

/-- The lane sum over the 2000 rows of a block, at column `q`. -/
theorem laneSum_apply (src : FVec Ideal S2000x128 .f32) (h : S2000x128.Reduces [0] S128) (hφ : FKind.Formats .f32)
    (hacc : (0x00000000#32 : BitVec 32) = 0x00000000#32) (q : Fin 128) :
    multiReduction .add [0] S128 src 0x00000000#32 h hφ hacc (ix1 q) = ∑ r : Fin 2000, src (ix2 r q) := by
  refine (Ideal.multiReduction_add_single src 0x00000000#32 h hφ hacc (ix1 q)).trans ?_
  exact Finset.sum_congr rfl fun k _ => congrArg src (lift_eq h q k)

/-- The shifted block: entry `(r, q)` of the block plus entry `q` of the row. -/
theorem pay3_apply (x0 : Vec Ideal S2000x128 .f32) (x1 : Vec Ideal S1x128 .f32) (r : Fin 2000) (q : Fin 128) :
    k1_pay3 x0 x1 (ix2 r q) = x0 (ix2 r q) + x1 (ix2 0 q) := by
  unfold k1_pay3
  refine (addf_apply _ _ _).trans ?_
  refine congrArg₂ (· + ·) ?_ ?_
  · exact congrFun (shapeCast_self x0 _) _
  · refine (broadcastTo_1b_ab_apply _ _ r q).trans ?_
    exact congrFun (shapeCast_self x1 _) _

/-- The first accumulator's update at column `q`: what it held plus the column sum of the shifted block. -/
theorem pay4_apply (x0 : Vec Ideal S2000x128 .f32) (x1 xo : Vec Ideal S1x128 .f32) (q : Fin 128) :
    k1_pay4 x0 x1 xo (ix2 0 q) = xo (ix2 0 q) + ∑ r : Fin 2000, (x0 (ix2 r q) + x1 (ix2 0 q)) := by
  unfold k1_pay4
  refine (addf_apply _ _ _).trans ?_
  refine congrArg₂ (· + ·) ?_ ?_
  · exact congrFun (shapeCast_self xo _) _
  · refine (shapeCast_a_1a_apply _ _ (0 : Fin 1) q).trans ?_
    refine (laneSum_apply _ _ _ _ q).trans ?_
    exact Finset.sum_congr rfl fun r _ => pay3_apply x0 x1 r q

/-- The second accumulator's update at column `q`: what it held plus the column sum of squares of the shifted block. -/
theorem pay5_apply (x0 : Vec Ideal S2000x128 .f32) (x1 xo : Vec Ideal S1x128 .f32) (q : Fin 128) :
    k1_pay5 x0 x1 xo (ix2 0 q)
      = xo (ix2 0 q) + ∑ r : Fin 2000, (x0 (ix2 r q) + x1 (ix2 0 q)) * (x0 (ix2 r q) + x1 (ix2 0 q)) := by
  unfold k1_pay5
  refine (addf_apply _ _ _).trans ?_
  refine congrArg₂ (· + ·) ?_ ?_
  · exact congrFun (shapeCast_self xo _) _
  · refine (shapeCast_a_1a_apply _ _ (0 : Fin 1) q).trans ?_
    refine (laneSum_apply _ _ _ _ q).trans ?_
    refine Finset.sum_congr rfl fun r _ => ?_
    refine (mulf_apply _ _ _).trans ?_
    rw [pay3_apply x0 x1 r q]

/-- The zero row the first grid point stores, at column `q`. -/
theorem pay1_apply (q : Fin 128) : k1_pay1 (F := Ideal) (ix2 0 q) = 0 := by
  unfold k1_pay1
  exact Ideal.ofBits_zero_f32

theorem pay2_apply (q : Fin 128) : k1_pay2 (F := Ideal) (ix2 0 q) = 0 := by
  unfold k1_pay2
  exact Ideal.ofBits_zero_f32

end Payloads

section Blocks
variable {F : FTy → Type} [FloatOps F]
variable (V : (c : Dev nD) → (b : Ref sig .tc) → Buf (Elt F) ((c : Thread nD τ).loc b))

/-- The block index of each window at each grid point: window 0 moves down one block of rows per point, the other three
    stay at block (0, 0). -/
theorem idx0 : ∀ t : Fin cfg1.N, win1_0.index t 0 = t.val ∧ win1_0.index t 1 = 0 :=
  (by decide +kernel : ∀ t : Fin grid1.N, win1_0.index t 0 = t.val ∧ win1_0.index t 1 = 0)
theorem idx1 : ∀ t : Fin cfg1.N, win1_1.index t 0 = 0 ∧ win1_1.index t 1 = 0 :=
  (by decide +kernel : ∀ t : Fin grid1.N, win1_1.index t 0 = 0 ∧ win1_1.index t 1 = 0)
theorem idx2 : ∀ t : Fin cfg1.N, win1_2.index t 0 = 0 ∧ win1_2.index t 1 = 0 :=
  (by decide +kernel : ∀ t : Fin grid1.N, win1_2.index t 0 = 0 ∧ win1_2.index t 1 = 0)
theorem idx3 : ∀ t : Fin cfg1.N, win1_3.index t 0 = 0 ∧ win1_3.index t 1 = 0 :=
  (by decide +kernel : ∀ t : Fin grid1.N, win1_3.index t 0 = 0 ∧ win1_3.index t 1 = 0)

/-- Entry `(r, q)` of block `t` of the large array is its entry `(2000 t + r, q)`. -/
theorem iblk_0_apply (c : Dev nD) (t : Fin cfg1.N) (r : Fin 2000) (q : Fin 128) (hp : 2000 * t.val + r.val < 100000) :
    (iblk1 V c 0 t : Vec F S2000x128 .f32) (ix2 r q)
      = (V c main_v43 : Vec F S100000x128 .f32) (ix2 ⟨2000 * t.val + r.val, hp⟩ q) := by
  have hi := idx0 t
  unfold iblk1
  rw [View.read_apply]
  show V c main_v43 _ = V c main_v43 _
  refine congrArg _ (funext fun a => Fin.ext ?_)
  match a with
  | ⟨0, _⟩ => show win1_0.index t 0 * 2000 + 1 * r.val = 2000 * t.val + r.val; rw [hi.1]; omega
  | ⟨1, _⟩ => show win1_0.index t 1 * 128 + 1 * q.val = q.val; rw [hi.2]; omega

/-- The one block of the row array is the row array. -/
theorem iblk_1_apply (c : Dev nD) (t : Fin cfg1.N) (q : Fin 128) :
    (iblk1 V c 1 t : Vec F S1x128 .f32) (ix2 0 q) = (V c main_v44 : Vec F S1x128 .f32) (ix2 0 q) := by
  have hi := idx1 t
  unfold iblk1
  rw [View.read_apply]
  show V c main_v44 _ = V c main_v44 _
  refine congrArg _ (funext fun a => Fin.ext ?_)
  match a with
  | ⟨0, _⟩ => show win1_1.index t 0 * 1 + 1 * 0 = 0; rw [hi.1]
  | ⟨1, _⟩ => show win1_1.index t 1 * 128 + 1 * q.val = q.val; rw [hi.2]; omega

end Blocks

section Invariant
variable (V : (c : Dev nD) → (b : Ref sig .tc) → Buf (Elt Ideal) ((c : Thread nD τ).loc b))

/-- The shifted entry in row `p`, column `q`: `A[p, q] + b[0, q]` (zero past the last row). -/
def term (A : Cert.Spec.Arr 100000 128) (b : Cert.Spec.Arr 1 128) (q : Fin 128) (p : ℕ) : EReal :=
  if h : p < 100000 then A (ix2 ⟨p, h⟩ q) + b (ix2 0 q) else 0

/-- Block `t` of the large array and the one block of the row array, as the body receives them. -/
abbrev blkA (c : Dev nD) (t : Fin cfg1.N) : Vec Ideal S2000x128 .f32 := iblk1 V c 0 t
abbrev blkB (c : Dev nD) (t : Fin cfg1.N) : Vec Ideal S1x128 .f32 := iblk1 V c 1 t

/-- Row `r` of the shifted block at grid point `t` is row `2000 t + r` of the shifted array. -/
theorem block_term (c : Dev nD) (t : Fin cfg1.N) (q : Fin 128) (r : Fin 2000) :
    blkA V c t (ix2 r q) + blkB V c t (ix2 0 q) = term (V c main_v43) (V c main_v44) q (2000 * t.val + r.val) := by
  have hN : t.val < 50 := lt_of_lt_of_eq t.isLt (show cfg1.N = 50 from N_1)
  have hp : 2000 * t.val + r.val < 100000 := by have := r.isLt; omega
  refine (congrArg₂ (fun x y : EReal => x + y) (iblk_0_apply V c t r q hp) (iblk_1_apply V c t q)).trans ?_
  unfold term
  rw [dif_pos hp]

/-- What the first grid point leaves in the first accumulator: the column sums of its shifted block. -/
theorem fst_A (c : Dev nD) (t : Fin cfg1.N) (h0 : t.val % 50 = 0) (q : Fin 128) :
    (outsAt1 V c t.val t.isLt).1 (ix2 0 q)
      = ∑ r ∈ Finset.range 2000, term (V c main_v43) (V c main_v44) q (2000 * t.val + r) := by
  rw [outsAt1_A V c t h0]
  dsimp only
  rw [out_A_2 (F := Ideal) c (grid1.coords t) (ms1_0 t) (hs1_0 t) (ms1_1 t) (hs1_1 t) (ms1_2 t) (hs1_2 t) (ms1_3 t) (hs1_3 t) ((hcond1_0 t).mpr h0) (iblk1 V c 0 t) (iblk1 V c 1 t)]
  rw [pay4_apply, pay1_apply, zero_add, ← Fin.sum_univ_eq_sum_range]
  exact Finset.sum_congr rfl fun r _ => block_term V c t q r

/-- and in the second: the column sums of squares. -/
theorem snd_A (c : Dev nD) (t : Fin cfg1.N) (h0 : t.val % 50 = 0) (q : Fin 128) :
    (outsAt1 V c t.val t.isLt).2 (ix2 0 q)
      = ∑ r ∈ Finset.range 2000, term (V c main_v43) (V c main_v44) q (2000 * t.val + r)
          * term (V c main_v43) (V c main_v44) q (2000 * t.val + r) := by
  rw [outsAt1_A V c t h0]
  dsimp only
  rw [out_A_3 (F := Ideal) c (grid1.coords t) (ms1_0 t) (hs1_0 t) (ms1_1 t) (hs1_1 t) (ms1_2 t) (hs1_2 t) (ms1_3 t) (hs1_3 t) ((hcond1_0 t).mpr h0) (iblk1 V c 0 t) (iblk1 V c 1 t)]
  rw [pay5_apply, pay2_apply, zero_add, ← Fin.sum_univ_eq_sum_range]
  exact Finset.sum_congr rfl fun r _ => congrArg₂ (· * ·) (block_term V c t q r) (block_term V c t q r)

/-- What every later grid point leaves in the first accumulator: what the point before left plus the column sums of its
    shifted block. -/
theorem fst_B (c : Dev nD) (t : Fin cfg1.N) (h0 : ¬t.val % 50 = 0) (q : Fin 128) :
    (outsAt1 V c t.val t.isLt).1 (ix2 0 q)
      = (outsAt1 V c (t.val - 1) (Nat.lt_of_le_of_lt (Nat.sub_le _ _) t.isLt)).1 (ix2 0 q)
        + ∑ r ∈ Finset.range 2000, term (V c main_v43) (V c main_v44) q (2000 * t.val + r) := by
  rw [outsAt1_B V c t h0]
  dsimp only
  rw [out_B_2 (F := Ideal) c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t)
    (outsAt1 V c (t.val - 1) (Nat.lt_of_le_of_lt (Nat.sub_le _ _) t.isLt)).1
    (outsAt1 V c (t.val - 1) (Nat.lt_of_le_of_lt (Nat.sub_le _ _) t.isLt)).2]
  rw [pay4_apply, ← Fin.sum_univ_eq_sum_range]
  exact congrArg _ (Finset.sum_congr rfl fun r _ => block_term V c t q r)

theorem snd_B (c : Dev nD) (t : Fin cfg1.N) (h0 : ¬t.val % 50 = 0) (q : Fin 128) :
    (outsAt1 V c t.val t.isLt).2 (ix2 0 q)
      = (outsAt1 V c (t.val - 1) (Nat.lt_of_le_of_lt (Nat.sub_le _ _) t.isLt)).2 (ix2 0 q)
        + ∑ r ∈ Finset.range 2000, term (V c main_v43) (V c main_v44) q (2000 * t.val + r)
            * term (V c main_v43) (V c main_v44) q (2000 * t.val + r) := by
  rw [outsAt1_B V c t h0]
  dsimp only
  rw [out_B_3 (F := Ideal) c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t)
    (outsAt1 V c (t.val - 1) (Nat.lt_of_le_of_lt (Nat.sub_le _ _) t.isLt)).1
    (outsAt1 V c (t.val - 1) (Nat.lt_of_le_of_lt (Nat.sub_le _ _) t.isLt)).2]
  rw [pay5_apply, ← Fin.sum_univ_eq_sum_range]
  exact congrArg _ (Finset.sum_congr rfl fun r _ => congrArg₂ (· * ·) (block_term V c t q r) (block_term V c t q r))

/-- THE INVARIANT. After grid point `n` the two accumulators hold, at column `q`, the sum and the sum of squares of the
    shifted entries over the first `2000 (n + 1)` rows. -/
theorem acc_eq (c : Dev nD) : ∀ (n : ℕ) (h : n < cfg1.N) (q : Fin 128),
    (outsAt1 V c n h).1 (ix2 0 q) = ∑ p ∈ Finset.range (2000 * (n + 1)), term (V c main_v43) (V c main_v44) q p
    ∧ (outsAt1 V c n h).2 (ix2 0 q)
        = ∑ p ∈ Finset.range (2000 * (n + 1)), term (V c main_v43) (V c main_v44) q p * term (V c main_v43) (V c main_v44) q p
  | 0, h, q => by
    refine ⟨(fst_A V c ⟨0, h⟩ rfl q).trans ?_, (snd_A V c ⟨0, h⟩ rfl q).trans ?_⟩
    · exact Finset.sum_congr rfl fun r _ => by rw [Nat.mul_zero, Nat.zero_add]
    · exact Finset.sum_congr rfl fun r _ => by rw [Nat.mul_zero, Nat.zero_add]
  | n + 1, h, q => by
    have hN : n + 1 < 50 := lt_of_lt_of_eq h (show cfg1.N = 50 from N_1)
    have hB : ¬(⟨n + 1, h⟩ : Fin cfg1.N).val % 50 = 0 := by dsimp only; omega
    obtain ⟨ih1, ih2⟩ := acc_eq c n (Nat.lt_of_succ_lt h) q
    have e : 2000 * (n + 1 + 1) = 2000 * (n + 1) + 2000 := by omega
    refine ⟨(fst_B V c ⟨n + 1, h⟩ hB q).trans ?_, (snd_B V c ⟨n + 1, h⟩ hB q).trans ?_⟩
    · show (outsAt1 V c n _).1 (ix2 0 q) + _ = _
      rw [ih1, e, Finset.sum_range_add]
    · show (outsAt1 V c n _).2 (ix2 0 q) + _ = _
      rw [ih2, e, Finset.sum_range_add]

end Invariant

section Final
variable (V : (c : Dev nD) → (b : Ref sig .tc) → Buf (Elt Ideal) ((c : Thread nD τ).loc b))

/-- The column sum over the 100000 rows, as a sum over the natural numbers below 100000. -/
theorem colSum_eq (A : Cert.Spec.Arr 100000 128) (b : Cert.Spec.Arr 1 128) (u : Fin 1) (q : Fin 128) :
    Cert.Spec.colSum A b (ix2 u q) = ∑ p ∈ Finset.range 100000, term A b q p := by
  unfold Cert.Spec.colSum
  rw [← Fin.sum_univ_eq_sum_range]
  exact Finset.sum_congr rfl fun p _ => by unfold term; rw [dif_pos p.isLt]

theorem colSumSq_eq (A : Cert.Spec.Arr 100000 128) (b : Cert.Spec.Arr 1 128) (u : Fin 1) (q : Fin 128) :
    Cert.Spec.colSumSq A b (ix2 u q) = ∑ p ∈ Finset.range 100000, term A b q p * term A b q p := by
  unfold Cert.Spec.colSumSq
  rw [← Fin.sum_univ_eq_sum_range]
  exact Finset.sum_congr rfl fun p _ => by unfold term; rw [dif_pos p.isLt]

/-- After the last grid point the first accumulator holds the column sums of the whole shifted array, -/
theorem last_fst (c : Dev nD) (t : Fin cfg1.N) (h49 : t.val = 49) :
    ((outsAt1 V c t.val t.isLt).1 : Vec Ideal S1x128 .f32) = Cert.Spec.colSum (V c main_v43) (V c main_v44) := by
  funext j
  obtain ⟨u, q, rfl⟩ : ∃ (u : Fin 1) (q : Fin 128), j = ix2 u q := ⟨j 0, j 1, eq_ix2 j⟩
  obtain rfl : u = 0 := Subsingleton.elim _ _
  rw [(acc_eq V c t.val t.isLt q).1, colSum_eq, h49]

/-- and the second the column sums of squares. -/
theorem last_snd (c : Dev nD) (t : Fin cfg1.N) (h49 : t.val = 49) :
    ((outsAt1 V c t.val t.isLt).2 : Vec Ideal S1x128 .f32) = Cert.Spec.colSumSq (V c main_v43) (V c main_v44) := by
  funext j
  obtain ⟨u, q, rfl⟩ : ∃ (u : Fin 1) (q : Fin 128), j = ix2 u q := ⟨j 0, j 1, eq_ix2 j⟩
  obtain rfl : u = 0 := Subsingleton.elim _ _
  rw [(acc_eq V c t.val t.isLt q).2, colSumSq_eq, h49]

/-- The extents of the two outputs' one block: the whole 1 x 128 array. -/
theorem xs2 : ∀ t : Fin cfg1.N, win1_2.xsize (grid1.coords t) 0 = 1 ∧ win1_2.xsize (grid1.coords t) 1 = 128 :=
  (by decide +kernel : ∀ t : Fin grid1.N, win1_2.xsize (grid1.coords t) 0 = 1 ∧ win1_2.xsize (grid1.coords t) 1 = 128)
theorem xs3 : ∀ t : Fin cfg1.N, win1_3.xsize (grid1.coords t) 0 = 1 ∧ win1_3.xsize (grid1.coords t) 1 = 128 :=
  (by decide +kernel : ∀ t : Fin grid1.N, win1_3.xsize (grid1.coords t) 0 = 1 ∧ win1_3.xsize (grid1.coords t) 1 = 128)

/-- The one write-back of the first output, after the last grid point, writes the column sums: its block is the array. -/
theorem flushed_2 (c : Dev nD) (t : Fin cfg1.N) (hf : (cfg1.win 2).flush t = true) :
    (dat1 (F := Ideal) V c).flushed 2 t
      = ((cfg1.win 2).blk t).view.read (Elt Ideal) (Cert.Spec.colSum (V c main_v43) (V c main_v44)) := by
  have hN : t.val < 50 := lt_of_lt_of_eq t.isLt (show cfg1.N = 50 from N_1)
  have h49 : t.val = 49 := by have := (flush1_2 t).mp hf; omega
  have hi := idx2 t
  show (cfg1.win 2).cut (grid1.coords t) ((dat1 V c).after 2 t) = _
  rw [after1_2]
  have hz' : (fun a => win1_2.index t a * main_v47_0.ty.shape.size a) = fun _ => 0 := funext fun a => by
    match a with
    | ⟨0, _⟩ => show win1_2.index t 0 * 1 = 0; rw [hi.1]
    | ⟨1, _⟩ => show win1_2.index t 1 * 128 = 0; rw [hi.2]
  refine Eq.trans ?_ (Memref.read_access_unit_zero (Elt Ideal) main_v47_0 hz' (fun a => by rw [congrFun hz' a]; simp)
    (Cert.Spec.colSum (V c main_v43) (V c main_v44))).symm
  exact last_fst V c t h49

theorem flushed_3 (c : Dev nD) (t : Fin cfg1.N) (hf : (cfg1.win 3).flush t = true) :
    (dat1 (F := Ideal) V c).flushed 3 t
      = ((cfg1.win 3).blk t).view.read (Elt Ideal) (Cert.Spec.colSumSq (V c main_v43) (V c main_v44)) := by
  have hN : t.val < 50 := lt_of_lt_of_eq t.isLt (show cfg1.N = 50 from N_1)
  have h49 : t.val = 49 := by have := (flush1_3 t).mp hf; omega
  have hi := idx3 t
  show (cfg1.win 3).cut (grid1.coords t) ((dat1 V c).after 3 t) = _
  rw [after1_3]
  have hz' : (fun a => win1_3.index t a * main_v47_1.ty.shape.size a) = fun _ => 0 := funext fun a => by
    match a with
    | ⟨0, _⟩ => show win1_3.index t 0 * 1 = 0; rw [hi.1]
    | ⟨1, _⟩ => show win1_3.index t 1 * 128 = 0; rw [hi.2]
  refine Eq.trans ?_ (Memref.read_access_unit_zero (Elt Ideal) main_v47_1 hz' (fun a => by rw [congrFun hz' a]; simp)
    (Cert.Spec.colSumSq (V c main_v43) (V c main_v44))).symm
  exact last_snd V c t h49

/-- The last grid point. -/
abbrev tLast : Fin cfg1.N := ⟨49, by rw [show cfg1.N = 50 from N_1]; decide⟩

/-- WHAT THE STAGE LEAVES. For any contents the stage is entered with, its first output array ends holding the column
    sums of the large array shifted by the row, -/
theorem value_sum (c : Dev nD) :
    (dat1 (F := Ideal) V c).arrAt 2 cfg1.N = Cert.Spec.colSum (V c main_v43) (V c main_v44) :=
  (dat1 (F := Ideal) V c).arrAt_eq_of_cover 2 (Cert.Spec.colSum (V c main_v43) (V c main_v44)) (flushed_2 V c) fun i =>
    ⟨tLast, (flush1_2 tLast).mpr rfl, by
      show i ∈ ((View.whole main_v47_0).slice (win1_2.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win1_2.index tLast 0 * win1_2.size 0 ≤ (i 0 : Nat) ∧ (i 0 : Nat) < win1_2.index tLast 0 * win1_2.size 0 + win1_2.xsize (grid1.coords tLast) 0
        rw [(idx2 tLast).1, (xs2 tLast).1]; omega
      | ⟨1, _⟩ =>
        show win1_2.index tLast 1 * win1_2.size 1 ≤ (i 1 : Nat) ∧ (i 1 : Nat) < win1_2.index tLast 1 * win1_2.size 1 + win1_2.xsize (grid1.coords tLast) 1
        rw [(idx2 tLast).2, (xs2 tLast).2]; omega⟩

/-- and its second the column sums of squares. -/
theorem value_sumsq (c : Dev nD) :
    (dat1 (F := Ideal) V c).arrAt 3 cfg1.N = Cert.Spec.colSumSq (V c main_v43) (V c main_v44) :=
  (dat1 (F := Ideal) V c).arrAt_eq_of_cover 3 (Cert.Spec.colSumSq (V c main_v43) (V c main_v44)) (flushed_3 V c) fun i =>
    ⟨tLast, (flush1_3 tLast).mpr rfl, by
      show i ∈ ((View.whole main_v47_1).slice (win1_3.rect tLast)).set
      rw [View.set_slice_whole, Rect.mem_set_unit]
      intro a
      have h0 : (i 0 : Nat) < 1 := (i 0).isLt
      have h1 : (i 1 : Nat) < 128 := (i 1).isLt
      match a with
      | ⟨0, _⟩ =>
        show win1_3.index tLast 0 * win1_3.size 0 ≤ (i 0 : Nat) ∧ (i 0 : Nat) < win1_3.index tLast 0 * win1_3.size 0 + win1_3.xsize (grid1.coords tLast) 0
        rw [(idx3 tLast).1, (xs3 tLast).1]; omega
      | ⟨1, _⟩ =>
        show win1_3.index tLast 1 * win1_3.size 1 ≤ (i 1 : Nat) ∧ (i 1 : Nat) < win1_3.index tLast 1 * win1_3.size 1 + win1_3.xsize (grid1.coords tLast) 1
        rw [(idx3 tLast).2, (xs3 tLast).2]; omega⟩

end Final

end Cert.KernelIdeal.Region1

end
-- ==== Proof.Region2.lean ====
/-
  The third tiled stage, read as a whole-array function. The 100000 x 128 operand is cut into 50 tiles of 2000 rows; the
  five 1 x 128 parameter rows (bias, mean, variance, scale, shift) are resident whole at every grid point. At point `t`
  the body stores, for row `r` and column `q` of its tile,
      max (scale[q] · ((a[2000·t + r, q] + bias[q]) − mean[q]) · rsqrt (variance[q] + eps) + shift[q]) 0,
  and writes the tile back to rows 2000·t … 2000·t + 1999 of the output. Every row `p` lies in the tile of point
  `p / 2000`, so the tiles cover the output array, which therefore ends holding that map applied entry by entry —
  for any contents the region is entered with.
-/
import proofs.«127498_j87368224735831_2_alg».proof.Proof.Gen.KernelIdeal.Frame
import proofs.«127498_j87368224735831_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region2

open Cert.KernelIdeal Cert.KernelIdeal.Gen Idealize.ShloMosaic Idealize.ShloMosaic.TcCoe Idealize.ShloMosaic.ValueIdx
open Idealize.ShloMosaic.Pipeline

theorem hz : (![0, 0] : Fin 2 → Nat) = fun _ => 0 := funext fun a => by fin_cases a <;> rfl

/-- The body's stored value at row `r`, column `q` of its tile, from the tile's entry there and the five rows' entries
    in column `q`. -/
theorem pay_apply (x0 : Vec Ideal S2000x128 .f32) (x1 x2 x3 x4 x5 : Vec Ideal S1x128 .f32) (r : Fin 2000) (q : Fin 128) :
    k2_pay1 x0 x1 x2 x3 x4 x5 (ix2 r q)
      = max ((x4 (ix2 0 q) * ((x0 (ix2 r q) + x1 (ix2 0 q)) - x2 (ix2 0 q))) * Ideal.rsqrt (x3 (ix2 0 q) + Cert.Spec.eps)
          + x5 (ix2 0 q)) 0 := by
  unfold k2_pay1
  simp only [shapeCast_self]
  simp only [maximumf_apply, addf_apply, mulf_apply, subf_apply, broadcast_apply, broadcastTo_1b_ab_apply]
  show max (_ * _ * Ideal.rsqrt (x3 (ix2 0 q) + Ideal.ofBits .f32 0x3727C5AC#32) + _) (Ideal.ofBits .f32 0x00000000#32) = _
  rw [Ideal.ofBits_zero_f32]
  rfl

/-- The printed index maps, decided once over the 50 grid points: at point `t` the input's and the output's tile is tile `t`
    down the rows, and each of the five parameter rows is its one whole block. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- One stored entry against the whole-array map: if the tile's entry at `j` is the array's entry at `i`, in the same
    column, and the five staged rows are the five parameter rows, the body's value at `j` is the map's value at `i`. -/
theorem point (a : Cert.Spec.Arr 100000 128) (b mu var g be : Cert.Spec.Arr 1 128)
    (x0 : Vec Ideal S2000x128 .f32) (x1 x2 x3 x4 x5 : Vec Ideal S1x128 .f32)
    (j : S2000x128.Idx) (i : S100000x128.Idx) (hq : (i 1).val = (j 1).val)
    (h0 : x0 j = a i) (h1 : ∀ y, x1 y = b y) (h2 : ∀ y, x2 y = mu y) (h3 : ∀ y, x3 y = var y)
    (h4 : ∀ y, x4 y = g y) (h5 : ∀ y, x5 y = be y) :
    k2_pay1 x0 x1 x2 x3 x4 x5 j = Cert.Spec.bnRelu a b mu var g be i := by
  obtain ⟨r, q, rfl⟩ : ∃ (r : Fin 2000) (q : Fin 128), j = ix2 r q := ⟨j 0, j 1, eq_ix2 j⟩
  obtain ⟨p, q', rfl⟩ : ∃ (p : Fin 100000) (q' : Fin 128), i = ix2 p q' := ⟨i 0, i 1, eq_ix2 i⟩
  obtain rfl : q' = q := Fin.ext hq
  rw [pay_apply, h0, h1, h2, h3, h4, h5]
  rfl

variable (V : (c : Dev nD) → (b : Ref sig .tc) → Buf (Elt Ideal) ((c : Thread nD τ).loc b))

/-- What grid point `t` writes back is tile `t` of the whole-array map of the arrays the region is entered with. -/
theorem flushed_eq (c : Dev nD) (t : Fin cfg2.N) :
    (dat2 (F := Ideal) V c).flushed 6 t
      = ((cfg2.win 6).blk t).view.read (Elt Ideal)
          (Cert.Spec.bnRelu (V c main_v43) (V c main_v44) (V c main_v49) (V c main_v55) (V c main_v45) (V c main_v46)) := by
  show (cfg2.win 6).cut (grid2.coords t) ((dat2 V c).after 6 t) = _
  rw [after2_6]
  unfold out2_6
  rw [View.canon_unit_zero hz]
  simp only [View.ld_unit_zero (S := S2000x128) hz, View.ld_unit_zero (S := S1x128) hz]
  obtain ⟨e00, e01, e10, e11, e20, e21, e30, e31, e40, e41, e50, e51, e60, e61⟩ := idx_facts t
  funext j
  show k2_pay1 (iblk2 V c 0 t) (iblk2 V c 1 t) (iblk2 V c 2 t) (iblk2 V c 3 t) (iblk2 V c 4 t) (iblk2 V c 5 t) j
    = Cert.Spec.bnRelu (V c main_v43) (V c main_v44) (V c main_v49) (V c main_v55) (V c main_v45) (V c main_v46)
        (((cfg2.win 6).blk t).view.emb j)
  refine point (V c main_v43) (V c main_v44) (V c main_v49) (V c main_v55) (V c main_v45) (V c main_v46)
    (iblk2 V c 0 t) (iblk2 V c 1 t) (iblk2 V c 2 t) (iblk2 V c 3 t) (iblk2 V c 4 t) (iblk2 V c 5 t)
    j (((cfg2.win 6).blk t).view.emb j) ?_ ?_ ?_ ?_ ?_ ?_ ?_
  · show win2_6.index t (1 : Fin 2) * 128 + 1 * (j 1).val = (j 1).val
    omega
  · show V c main_v43 (((cfg2.win 0).blk t).view.emb j) = V c main_v43 (((cfg2.win 6).blk t).view.emb j)
    refine congrArg _ (funext fun a => Fin.ext ?_)
    match a with
    | ⟨0, _⟩ => show win2_0.index t (0 : Fin 2) * 2000 + 1 * (j 0).val = win2_6.index t (0 : Fin 2) * 2000 + 1 * (j 0).val; omega
    | ⟨1, _⟩ => show win2_0.index t (1 : Fin 2) * 128 + 1 * (j 1).val = win2_6.index t (1 : Fin 2) * 128 + 1 * (j 1).val; omega
  · intro y
    show V c main_v44 (((cfg2.win 1).blk t).view.emb y) = V c main_v44 y
    refine congrArg _ (funext fun a => Fin.ext ?_)
    match a with
    | ⟨0, _⟩ => show win2_1.index t (0 : Fin 2) * 1 + 1 * (y 0).val = (y 0).val; omega
    | ⟨1, _⟩ => show win2_1.index t (1 : Fin 2) * 128 + 1 * (y 1).val = (y 1).val; omega
  · intro y
    show V c main_v49 (((cfg2.win 2).blk t).view.emb y) = V c main_v49 y
    refine congrArg _ (funext fun a => Fin.ext ?_)
    match a with
    | ⟨0, _⟩ => show win2_2.index t (0 : Fin 2) * 1 + 1 * (y 0).val = (y 0).val; omega
    | ⟨1, _⟩ => show win2_2.index t (1 : Fin 2) * 128 + 1 * (y 1).val = (y 1).val; omega
  · intro y
    show V c main_v55 (((cfg2.win 3).blk t).view.emb y) = V c main_v55 y
    refine congrArg _ (funext fun a => Fin.ext ?_)
    match a with
    | ⟨0, _⟩ => show win2_3.index t (0 : Fin 2) * 1 + 1 * (y 0).val = (y 0).val; omega
    | ⟨1, _⟩ => show win2_3.index t (1 : Fin 2) * 128 + 1 * (y 1).val = (y 1).val; omega
  · intro y
    show V c main_v45 (((cfg2.win 4).blk t).view.emb y) = V c main_v45 y
    refine congrArg _ (funext fun a => Fin.ext ?_)
    match a with
    | ⟨0, _⟩ => show win2_4.index t (0 : Fin 2) * 1 + 1 * (y 0).val = (y 0).val; omega
    | ⟨1, _⟩ => show win2_4.index t (1 : Fin 2) * 128 + 1 * (y 1).val = (y 1).val; omega
  · intro y
    show V c main_v46 (((cfg2.win 5).blk t).view.emb y) = V c main_v46 y
    refine congrArg _ (funext fun a => Fin.ext ?_)
    match a with
    | ⟨0, _⟩ => show win2_5.index t (0 : Fin 2) * 1 + 1 * (y 0).val = (y 0).val; omega
    | ⟨1, _⟩ => show win2_5.index t (1 : Fin 2) * 128 + 1 * (y 1).val = (y 1).val; omega

/-- An entry of the output array is in point `t`'s tile iff each coordinate is in the tile's range on its axis. -/
theorem mem_blk (t : Fin cfg2.N) (i : S100000x128.Idx) :
    i ∈ ((cfg2.win 6).blk t).view.set
      ↔ ∀ a : Fin 2, win2_6.index t a * S2000x128.size a ≤ (i a).val
          ∧ (i a).val < win2_6.index t a * S2000x128.size a + S2000x128.size a := by
  show i ∈ ((View.whole main_v56).slice (win2_6.rect t)).set ↔ _
  rw [View.set_slice_whole, Rect.mem_set_unit]
  exact Iff.rfl

/-- The 50 tiles cover the output array: row `p` lies in the tile of point `p / 2000`. -/
theorem cover (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 50 := N_2
  obtain ⟨t, ht⟩ : ∃ t : Fin cfg2.N, t.val = (i 0).val / 2000 := ⟨⟨(i 0).val / 2000, by rw [hN]; omega⟩, rfl⟩
  obtain ⟨-, -, -, -, -, -, -, -, -, -, -, -, e60, e61⟩ := idx_facts t
  refine ⟨t, flush2_6 t, ?_⟩
  rw [mem_blk]
  intro a
  match a with
  | ⟨0, _⟩ =>
    show win2_6.index t (0 : Fin 2) * 2000 ≤ (i 0).val ∧ (i 0).val < win2_6.index t (0 : Fin 2) * 2000 + 2000
    omega
  | ⟨1, _⟩ =>
    show win2_6.index t (1 : Fin 2) * 128 ≤ (i 1).val ∧ (i 1).val < win2_6.index t (1 : Fin 2) * 128 + 128
    omega

/-- What the third tiled stage leaves in its output array, whatever contents `V` the region is entered with: the
    normalise / scale / shift / clamp map of the 100000 x 128 operand and the five parameter rows, entry by entry. -/
theorem value (c : Dev nD) :
    (dat2 (F := Ideal) V c).arrAt 6 cfg2.N
      = Cert.Spec.bnRelu (V c main_v43) (V c main_v44) (V c main_v49) (V c main_v55) (V c main_v45) (V c main_v46) :=
  (dat2 (F := Ideal) V c).arrAt_eq_of_cover 6 _ (fun t _ => flushed_eq V c t) cover

end Cert.KernelIdeal.Region2

end
-- ==== Proof.Algebra.lean ====
/-
  Two facts about a family of 100000 extended reals and the two float words that frame its statistics.

  The word 0x00000000 denotes 0 and the word 0x47C35000 denotes 100000 (sign 0, exponent 143, significand
  1 + 0x435000 / 2^23, so 2^16 * 1.52587890625 = 100000), which is exactly the number of terms of the sums below.

  With mu = (sum a_p) / 100000, the mean of the squared deviations (sum (a_p - mu)^2) / 100000 equals
  (sum a_p^2) / 100000 - mu^2: expand each square as a_p^2 - 2 mu a_p + mu^2, sum, and use that the sum of the
  constant mu^2 over 100000 terms is 100000 mu^2 while sum a_p = 100000 mu. The left side is a sum of squares times
  a positive number, hence nonnegative, so taking the maximum of the right side with 0 changes nothing. The
  expansion distributes a product over a sum, which is sound on the extended reals only for finite terms: every
  a_p is assumed real, the identity is proved in the reals, and the coercion carries it back.
-/
import proofs.«127498_j87368224735831_2_alg».proof.Proof.Spec
import Idealize.ShloMosaic.PureOps.Ideal

noncomputable section

namespace Cert.Algebra

open Idealize.ShloMosaic Cert.Spec
open scoped BigOperators

/-- The all-zero word denotes `0`. -/
theorem zeroW_eq : Ideal.ofBits .f32 0x00000000#32 = (0 : EReal) := by
  simp [Ideal.ofBits, Ideal.ieee]

/-- The word `0x47C35000` denotes the real number `100000`. -/
theorem nW_eq : Ideal.ofBits .f32 0x47C35000#32 = ((100000 : ℝ) : EReal) := by
  simp [Ideal.ofBits, Ideal.ieee, -EReal.coe_mul]; norm_num

/-- Adding the zero word in front of a sum changes nothing, so neither does it change the mean. -/
theorem mean_eq (A : Fin 100000 → EReal) :
    Ideal.div (Ideal.ofBits .f32 0x00000000#32 + ∑ p, A p) (Ideal.ofBits .f32 0x47C35000#32)
      = Ideal.div (∑ p, A p) (Ideal.ofBits .f32 0x47C35000#32) := by
  rw [zeroW_eq, zero_add]

/-- The coercion from the reals to the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- In the reals: the mean of squared deviations from the mean is the mean of squares minus the squared mean,
    when the divisor is the number of terms. -/
theorem real_var (a : Fin 100000 → ℝ) :
    (∑ p, (a p - (∑ p, a p) * (1 / 100000)) * (a p - (∑ p, a p) * (1 / 100000))) * (1 / 100000)
      = (∑ p, a p * a p) * (1 / 100000) - (∑ p, a p) * (1 / 100000) * ((∑ p, a p) * (1 / 100000)) := by
  generalize hS : (∑ p, a p) = S
  have hexp : ∀ p, (a p - S * (1 / 100000)) * (a p - S * (1 / 100000))
      = a p * a p - 2 * (S * (1 / 100000)) * a p + S * (1 / 100000) * (S * (1 / 100000)) := fun p => by ring
  simp only [hexp]
  rw [Finset.sum_add_distrib, Finset.sum_sub_distrib, ← Finset.mul_sum, hS, Finset.sum_const, Finset.card_univ,
    Fintype.card_fin, nsmul_eq_mul]
  push_cast
  ring

/-- The mean of squared deviations is nonnegative. -/
theorem real_var_nonneg (a : Fin 100000 → ℝ) (μ : ℝ) :
    0 ≤ (∑ p, (a p - μ) * (a p - μ)) * (1 / 100000) :=
  mul_nonneg (Finset.sum_nonneg fun p _ => mul_self_nonneg _) (by norm_num)

/-- The variance of finite entries, computed from deviations with a leading zero word, is the clamped
    difference of the mean of squares and the squared mean. -/
theorem var_eq (A : Fin 100000 → EReal) (hA : ∀ p, IsReal (A p)) :
    Ideal.div (Ideal.ofBits .f32 0x00000000#32 + ∑ p, (A p - Ideal.div (∑ p, A p) (Ideal.ofBits .f32 0x47C35000#32)) * (A p - Ideal.div (∑ p, A p) (Ideal.ofBits .f32 0x47C35000#32))) (Ideal.ofBits .f32 0x47C35000#32)
      = max (Ideal.div (∑ p, A p * A p) (Ideal.ofBits .f32 0x47C35000#32) - Ideal.div (∑ p, A p) (Ideal.ofBits .f32 0x47C35000#32) * Ideal.div (∑ p, A p) (Ideal.ofBits .f32 0x47C35000#32)) (Ideal.ofBits .f32 0x00000000#32) := by
  choose a ha using hA
  obtain rfl : A = fun p => (a p : EReal) := funext ha
  have hn : (100000 : ℝ) ≠ 0 := by norm_num
  have h1 : ∑ p, (a p : EReal) = ((∑ p, a p : ℝ) : EReal) := (coe_sum _ _).symm
  have h2 : ∑ p, (a p : EReal) * (a p : EReal) = ((∑ p, a p * a p : ℝ) : EReal) := by
    rw [coe_sum]; simp only [EReal.coe_mul]
  have h3 : ∀ μ : ℝ, ∑ p, ((a p : EReal) - (μ : EReal)) * ((a p : EReal) - (μ : EReal))
      = ((∑ p, (a p - μ) * (a p - μ) : ℝ) : EReal) := by
    intro μ; rw [coe_sum]; simp only [EReal.coe_mul, EReal.coe_sub]
  rw [zeroW_eq, nW_eq, zero_add]
  simp only [Ideal.div_coe hn]
  rw [h1, ← EReal.coe_mul, h3, h2, ← EReal.coe_mul, ← EReal.coe_mul, ← EReal.coe_mul, ← EReal.coe_sub,
    ← real_var a]
  exact (max_eq_left (EReal.coe_nonneg.mpr (real_var_nonneg a _))).symm

end Cert.Algebra

end
-- ==== Proof.Finite.lean ====
/-
  Finite arrays stay finite along the shared host chain, on the extended reals.

  An entry of a gathered or broadcast array is an entry of its operand; an entry of a product is the product of two
  entries; an entry of an accumulating scatter is an operand entry plus a finite sum of update entries. The real
  numbers are closed under products and finite sums, so each of these operations keeps "every entry is a real
  number". The degree is a scatter of ones into zeros, hence real. Where the degree is compared above zero it is a
  positive real r, whose inverse square root is the real (√r)⁻¹; elsewhere that stage is the constant zero. An edge
  weight is the product of two such entries, and the neighbour sum is a scatter into zeros of feature entries times
  edge weights.
-/
import proofs.«127498_j87368224735831_2_alg».proof.Proof.Shared
import proofs.«127498_j87368224735831_2_alg».proof.Proof.Spec
import Idealize.ShloMosaic.PureOps.Ideal
import Idealize.ShloMosaic.Lib.ValueIdx
import Idealize.ShloMosaic.Lib.Pipeline.Value

noncomputable section

namespace Cert.Finite

open Idealize.ShloMosaic Cert.ReferenceIdeal Cert.ReferenceIdeal.Facts₀ Cert.Spec
open scoped BigOperators

/-! ## Each operation keeps every entry real -/

section Operations
variable {s t si su : Shape} {φ : FTy}

/-- A broadcast's entry is an entry of its operand. -/
theorem isReal_broadcastInDim (dims : Fin s.rank → Fin t.rank) (hb : s.BroadcastsInDim t dims) (x : s.Idx → EReal)
    (hx : ∀ i, IsReal (x i)) : ∀ j, IsReal (broadcastInDim t dims hb x j) := by
  intro j
  unfold broadcastInDim
  exact hx _

/-- A gather's entry is an entry of its operand. -/
theorem isReal_gather {w : Nat} (d : GatherDims s si t) (x : s.Idx → EReal) (idx : IVec si w)
    (hx : ∀ i, IsReal (x i)) : ∀ j, IsReal (Host.gather d x idx j) := by
  intro j
  unfold Host.gather
  exact hx _

/-- A product's entry is the product of the two entries. -/
theorem isReal_mulf (a b : FVec Ideal s φ) (ha : ∀ i, IsReal (a i)) (hb : ∀ i, IsReal (b i)) :
    ∀ i, IsReal (mulf a b i) := by
  intro i
  rw [ValueIdx.mulf_apply]
  exact (ha i).mul (hb i)

/-- An accumulating scatter's entry is the operand's entry plus a finite sum of update entries. -/
theorem isReal_scatterAdd {w : Nat} (d : ScatterDims s si su) (x : FVec Ideal s φ) (idx : IVec si w)
    (upd : FVec Ideal su φ) (hx : ∀ i, IsReal (x i)) (hu : ∀ j, IsReal (upd j)) :
    ∀ i, IsReal (Host.scatterAdd d x idx upd i) := by
  intro i
  unfold Host.scatterAdd
  rw [Ideal.hostScatterAdd_def]
  unfold Ideal.hostScatterAdd
  exact (hx i).add (IsReal.sum _ _ fun j _ => hu j)

/-- The guarded inverse square root: where an entry r of a real array lies above the zero it is compared with, r is a
    positive real and its inverse square root is the real (√r)⁻¹; elsewhere the entry of the fallback array is taken. -/
theorem isReal_select_rsqrt (d z z' : FVec Ideal s φ) (hd : ∀ i, IsReal (d i)) (hz : ∀ i, z i = 0)
    (hz' : ∀ i, IsReal (z' i)) : ∀ i, IsReal (select (cmpf .ogt d z) (Host.rsqrt d) z' i) := by
  intro i
  rw [ValueIdx.select_apply]
  by_cases hc : cmpf .ogt d z i = 1#1
  · rw [hc, ValueIdx.select_one]
    obtain ⟨r, hr⟩ := hd i
    have hpos : (0 : EReal) < d i := by
      rw [ValueIdx.cmpf_apply, hz i] at hc
      by_contra hn
      have : Ideal.cmp .ogt (d i) 0 = 0#1 := by
        unfold Ideal.cmp
        simp [hn]
      change Ideal.cmp .ogt (d i) 0 = 1#1 at hc
      rw [this] at hc
      exact absurd hc (by decide)
    unfold Host.rsqrt
    rw [Ideal.hostUnary_rsqrt_def, hr]
    rw [hr] at hpos
    have hr0 : 0 < r := EReal.coe_pos.mp hpos
    rw [Ideal.rsqrt_coe, if_neg (not_lt.mpr hr0.le), if_neg hr0.ne']
    exact IsReal.coe _
  · rw [ValueIdx.eq_zero_of_ne_one hc, ValueIdx.select_zero]
    exact hz' i

end Operations

/-! ## The two constants -/

/-- The word of all zero bits is the real number zero. -/
theorem ofBits_zero : Ideal.ofBits .f32 0x00000000#32 = 0 := by
  simp [Ideal.ofBits, Ideal.ieee]

/-- The word 0x3F800000 is the real number one. -/
theorem ofBits_one : Ideal.ofBits .f32 0x3F800000#32 = 1 := by
  simp [Ideal.ofBits, Ideal.ieee, -EReal.coe_mul]; norm_num

/-- The scalar constant zero is real. -/
theorem isReal_const_zero : ∀ i, IsReal (constant (F := Ideal) S_ .f32 0x00000000#32 i) := by
  intro i
  rw [ValueIdx.constant_apply, ofBits_zero]
  exact IsReal.zero

/-- The scalar constant one is real. -/
theorem isReal_const_one : ∀ i, IsReal (constant (F := Ideal) S_ .f32 0x3F800000#32 i) := by
  intro i
  rw [ValueIdx.constant_apply, ofBits_one]
  exact ⟨1, EReal.coe_one.symm⟩

/-! ## The chain -/

/-- Every degree is a real number: ones added up into zeros. -/
theorem deg_isReal (e : (⟨S2x600000, .i32⟩ : BufTy).Contents (Elt Ideal)) :
    ∀ i, IsReal (Cert.Shared.deg (F := Ideal) e i) := by
  unfold Cert.Shared.deg
  exact isReal_scatterAdd _ _ _ _ (isReal_broadcastInDim _ _ _ isReal_const_zero)
    (isReal_broadcastInDim _ _ _ isReal_const_one)

/-- Every inverse square-root degree is a real number. -/
theorem dinv_isReal (e : (⟨S2x600000, .i32⟩ : BufTy).Contents (Elt Ideal)) :
    ∀ i, IsReal (Cert.Shared.dinv (F := Ideal) e i) := by
  unfold Cert.Shared.dinv
  refine isReal_select_rsqrt _ _ _ (deg_isReal e) (fun i => ?_) (isReal_broadcastInDim _ _ _ isReal_const_zero)
  unfold broadcastInDim
  rw [ValueIdx.constant_apply, ofBits_zero]

/-- Every edge weight is a real number. -/
theorem norm_isReal (e : (⟨S2x600000, .i32⟩ : BufTy).Contents (Elt Ideal)) :
    ∀ i, IsReal (Cert.Shared.norm (F := Ideal) e i) := by
  unfold Cert.Shared.norm
  exact isReal_mulf _ _ (isReal_gather _ _ _ (dinv_isReal e)) (isReal_gather _ _ _ (dinv_isReal e))

/-- The weighted neighbour sum of a real feature array is real at every entry. -/
theorem agg_isReal (h : (⟨S100000x128, .f32⟩ : BufTy).Contents (Elt Ideal))
    (e : (⟨S2x600000, .i32⟩ : BufTy).Contents (Elt Ideal)) (hh : ∀ i, IsReal (h i)) :
    ∀ i, IsReal (Cert.Shared.agg (F := Ideal) h e i) := by
  unfold Cert.Shared.agg
  exact isReal_scatterAdd _ _ _ _ (isReal_broadcastInDim _ _ _ isReal_const_zero)
    (isReal_mulf _ _ (isReal_gather _ _ _ hh)
      (isReal_broadcastInDim _ _ _ (isReal_broadcastInDim _ _ _ (norm_isReal e))))

end Cert.Finite

end
-- ==== Proof.RefRead.lean ====
/-
  The reference's closing stages and its matrix product, read one entry at a time over the extended reals.

  The product of a 100000 x 128 array with a 128 x 128 matrix is, entry by entry, the sum over the shared index of
  the products of the two factors. A length-128 vector repeated down the rows reads, at row p and column q, the
  vector's q-th entry, whatever p is. The column mean is the column's sum, started from zero, divided by 100000;
  the column variance is the same with every entry replaced by the square of its deviation from the column mean.
  The last stage is, entry by entry, the deviation from the mean scaled by the gain and by the reciprocal square
  root of the variance plus a small constant, shifted, and clamped below at zero.
-/
import proofs.«127498_j87368224735831_2_alg».proof.Proof.Shared
import proofs.«127498_j87368224735831_2_alg».proof.Proof.Spec
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.RefRead

open Idealize.ShloMosaic Idealize.ShloMosaic.ValueIdx Cert.ReferenceIdeal Cert.ReferenceIdeal.Facts₀ Cert.Spec
open scoped BigOperators

/-- An array of extended reals of shape s. -/
abbrev FV (s : Shape) : Type := (⟨s, .f32⟩ : BufTy).Contents (Elt Ideal)

/-! ## The matrix product -/

/-- The left factor's row coordinate is the output entry's row, whatever the contraction position. -/
theorem lhs_row (i : S100000x128.Idx) (c : dot_S100000x128_S128x128_S100000x128_1_0_0_1_n_n.contr.Idx) :
    (dot_S100000x128_S128x128_S100000x128_1_0_0_1_n_n.lhsIdx i c 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl

/-- The right factor's column coordinate is the output entry's column, whatever the contraction position. -/
theorem rhs_col (i : S100000x128.Idx) (c : dot_S100000x128_S128x128_S100000x128_1_0_0_1_n_n.contr.Idx) :
    (dot_S100000x128_S128x128_S100000x128_1_0_0_1_n_n.rhsIdx i c 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- The left factor's index at output entry (p, q) and contraction position k is (p, k). -/
theorem lhs_index (p : Fin 100000) (q k : Fin 128) :
    dot_S100000x128_S128x128_S100000x128_1_0_0_1_n_n.lhsIdx (ix2 p q)
      ((contrEquiv1 dot_S100000x128_S128x128_S100000x128_1_0_0_1_n_n 128 rfl rfl).symm k) = ix2 p k := by
  have hk := contrEquiv1_symm_val dot_S100000x128_S128x128_S100000x128_1_0_0_1_n_n 128 rfl rfl k
  refine funext fun a => Fin.ext ?_
  match a with
  | ⟨0, _⟩ => exact lhs_row _ _
  | ⟨1, _⟩ => exact (dot_S100000x128_S128x128_S100000x128_1_0_0_1_n_n.lhsIdx_val_of_single rfl (ix2 p q) _).trans hk

/-- The right factor's index at output entry (p, q) and contraction position k is (k, q). -/
theorem rhs_index (p : Fin 100000) (q k : Fin 128) :
    dot_S100000x128_S128x128_S100000x128_1_0_0_1_n_n.rhsIdx (ix2 p q)
      ((contrEquiv1 dot_S100000x128_S128x128_S100000x128_1_0_0_1_n_n 128 rfl rfl).symm k) = ix2 k q := by
  have hk := contrEquiv1_symm_val dot_S100000x128_S128x128_S100000x128_1_0_0_1_n_n 128 rfl rfl k
  refine funext fun a => Fin.ext ?_
  match a with
  | ⟨0, _⟩ => exact (dot_S100000x128_S128x128_S100000x128_1_0_0_1_n_n.rhsIdx_val_of_single rfl (ix2 p q) _).trans hk
  | ⟨1, _⟩ => exact rhs_col _ _

/-- The product of a 100000 x 128 array with a 128 x 128 matrix at entry (p, q): the sum over k of
    x[p, k] * w[k, q]. -/
theorem dot_apply (x : FV S100000x128) (w : FV S128x128) (p : Fin 100000) (q : Fin 128) :
    Host.dotGeneral (F := Ideal) (φ₁ := .f32) (φ₂ := .f32) dot_S100000x128_S128x128_S100000x128_1_0_0_1_n_n none x w (ix2 p q)
      = ∑ k : Fin 128, x (ix2 p k) * w (ix2 k q) := by
  simp only [Host.dotGeneral]
  rw [Ideal.dotGeneral_apply,
    ← Equiv.sum_comp (contrEquiv1 dot_S100000x128_S128x128_S100000x128_1_0_0_1_n_n 128 rfl rfl).symm]
  refine Finset.sum_congr rfl fun k _ => ?_
  rw [lhs_index, rhs_index]

/-- The matrix product, as a whole array, is the entry-by-entry sum of products. -/
theorem dot_eq (x : FV S100000x128) (w : FV S128x128) :
    Host.dotGeneral (F := Ideal) (φ₁ := .f32) (φ₂ := .f32) dot_S100000x128_S128x128_S100000x128_1_0_0_1_n_n none x w = Cert.Spec.matProd x w := by
  funext i
  obtain ⟨p, q, rfl⟩ : ∃ (p : Fin 100000) (q : Fin 128), i = ix2 p q := ⟨i 0, i 1, eq_ix2 i⟩
  exact dot_apply x w p q

/-! ## A vector repeated down the rows -/

/-- A length-128 vector laid out as one row and repeated down 100000 rows reads its q-th entry at (p, q). -/
theorem rowB_apply (v : FV S128) (p : Fin 100000) (q : Fin 128) :
    Cert.Shared.rowB (F := Ideal) v (ix2 p q) = v (ix1 q) := by
  unfold Cert.Shared.rowB
  refine (broadcastInDim_apply _ bcast_S1x128_S100000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 v (ix2 (0 : Fin 1) q) (ix1 q) (fun a => match a with
    | ⟨0, _⟩ => by show q.val = if (128 : Nat) = 1 then 0 else q.val; rw [if_neg (by decide)])

/-- Adding a repeated row to an array adds the row's q-th entry at (p, q). -/
theorem addRowB_apply (s : FV S100000x128) (b : FV S128) (p : Fin 100000) (q : Fin 128) :
    addf (F := Ideal) (φ := .f32) s (Cert.Shared.rowB b) (ix2 p q) = s (ix2 p q) + b (ix1 q) := by
  rw [addf_apply, rowB_apply]

/-! ## Constants, quotients and column sums at an index -/

/-- A scalar constant spread over a length-128 vector reads the constant everywhere. -/
theorem splat128_apply (c : BitVec 32) (q : Fin 128) :
    broadcastInDim S128 ![] bcast_S_S128 (constant (F := Ideal) S_ .f32 c) (ix1 q) = Ideal.ofBits .f32 c :=
  broadcastInDim_apply _ bcast_S_S128 (constant (F := Ideal) S_ .f32 c) (ix1 q) ix0 (fun a => a.elim0)

/-- A scalar constant spread over a 100000 x 128 array reads the constant everywhere. -/
theorem splatAll_apply (c : BitVec 32) (p : Fin 100000) (q : Fin 128) :
    broadcastInDim S100000x128 ![] bcast_S_S100000x128 (constant (F := Ideal) S_ .f32 c) (ix2 p q) = Ideal.ofBits .f32 c :=
  broadcastInDim_apply _ bcast_S_S100000x128 (constant (F := Ideal) S_ .f32 c) (ix2 p q) ix0 (fun a => a.elim0)

/-- The quotient of two vectors is, entry by entry, the quotient of the entries. -/
theorem quot_apply (x y : FV S128) (q : Fin 128) :
    Host.divf (F := Ideal) (φ := .f32) x y (ix1 q) = Ideal.div (x (ix1 q)) (y (ix1 q)) := rfl

/-- The reciprocal square root of a vector is, entry by entry, that of the entries. -/
theorem rsqrt_apply (x : FV S128) (q : Fin 128) :
    Host.rsqrt (F := Ideal) (φ := .f32) x (ix1 q) = Ideal.rsqrt (x (ix1 q)) := rfl

/-- The sum down the rows, started from the constant c, at column q: c plus the sum over the rows p of the
    entries (p, q). -/
theorem colSum_apply (y : FV S100000x128) (c : BitVec 32) (q : Fin 128) :
    Host.reduceAdd (F := Ideal) y (constant S_ .f32 c) reducesTo_S100000x128_S128_d0 h_S_ (ix1 q)
      = Ideal.ofBits .f32 c + ∑ p : Fin 100000, y (ix2 p q) := by
  simp only [Host.reduceAdd, Ideal.hostReduceAdd_def]
  rw [Ideal.hostReduceAdd_single reducesTo_S100000x128_S128_d0 (by decide)]
  refine congrArg (_ + ·) (Finset.sum_congr rfl fun k _ => ?_)
  exact congrArg y (funext fun a => Fin.ext (by match a with | ⟨0, _⟩ => rfl | ⟨1, _⟩ => rfl))

/-! ## The closing stages -/

/-- The column mean at column q: the column's sum, started from zero, divided by 100000. -/
theorem refMean_apply (a : FV S100000x128) (q : Fin 128) :
    Cert.Shared.refMean (F := Ideal) a (ix1 q)
      = Ideal.div (Ideal.ofBits .f32 0x00000000#32 + ∑ p : Fin 100000, a (ix2 p q)) (Ideal.ofBits .f32 0x47C35000#32) := by
  unfold Cert.Shared.refMean
  rw [quot_apply, colSum_apply, splat128_apply]

/-- The column variance at column q: the sum, started from zero, of the squared deviations from the column mean,
    divided by 100000. -/
theorem refVar_apply (a : FV S100000x128) (q : Fin 128) :
    Cert.Shared.refVar (F := Ideal) a (ix1 q)
      = Ideal.div (Ideal.ofBits .f32 0x00000000#32 + ∑ p : Fin 100000,
          (a (ix2 p q) - Cert.Shared.refMean (F := Ideal) a (ix1 q)) * (a (ix2 p q) - Cert.Shared.refMean (F := Ideal) a (ix1 q)))
        (Ideal.ofBits .f32 0x47C35000#32) := by
  unfold Cert.Shared.refVar
  generalize Cert.Shared.refMean (F := Ideal) a = mu
  rw [quot_apply, colSum_apply, splat128_apply]
  simp only [mulf_apply, subf_apply, rowB_apply]

/-- The last stage at (p, q): the deviation from the column mean, scaled by the gain and by the reciprocal square
    root of the variance plus the small constant, shifted, and clamped below at zero. -/
theorem refOut_apply (a : FV S100000x128) (g be : FV S128) (p : Fin 100000) (q : Fin 128) :
    Cert.Shared.refOut (F := Ideal) a g be (ix2 p q)
      = max ((g (ix1 q) * (a (ix2 p q) - Cert.Shared.refMean (F := Ideal) a (ix1 q)))
            * Ideal.rsqrt (Cert.Shared.refVar (F := Ideal) a (ix1 q) + Cert.Spec.eps) + be (ix1 q))
          (Ideal.ofBits .f32 0x00000000#32) := by
  unfold Cert.Shared.refOut Cert.Spec.eps
  generalize Cert.Shared.refMean (F := Ideal) a = mu
  generalize Cert.Shared.refVar (F := Ideal) a = va
  rw [maximumf_apply, addf_apply, mulf_apply, mulf_apply, subf_apply, splatAll_apply,
    rowB_apply, rowB_apply, rowB_apply, rowB_apply, rsqrt_apply, addf_apply, splat128_apply]

end Cert.RefRead

end
-- ==== Proof.Bridge.lean ====
/-
  The two programs compute one function. With a = (weighted neighbour sum of x · W) + b, the reference normalises
  each column of a by its mean mu = (Σ_p a[p, q]) / 100000 and its variance (Σ_p (a[p, q] − mu)²) / 100000; the tiled
  program uses the same mean and the variance max ((Σ_p a[p, q]²) / 100000 − mu², 0). For real entries the two
  variances are equal (the mean of squared deviations is the mean of squares less the squared mean, and it is
  nonnegative), and the entries are real because x, W and b are: a matrix product of real arrays is real, and the
  weighted neighbour sum of a real array is real. The scale, shift and clamp are the same on both sides.
-/
import proofs.«127498_j87368224735831_2_alg».proof.Proof.Shared
import proofs.«127498_j87368224735831_2_alg».proof.Proof.Spec
import proofs.«127498_j87368224735831_2_alg».proof.Proof.Algebra
import proofs.«127498_j87368224735831_2_alg».proof.Proof.Finite
import proofs.«127498_j87368224735831_2_alg».proof.Proof.RefRead

noncomputable section

namespace Cert.Bridge

open Idealize.ShloMosaic Idealize.ShloMosaic.ValueIdx Cert.ReferenceIdeal Cert.ReferenceIdeal.Facts₀ Cert.Spec Cert.RefRead
open scoped BigOperators

/-- A matrix product of real arrays is real. -/
theorem matProd_isReal (x : FV S100000x128) (w : FV S128x128) (hx : ∀ i, IsReal (x i)) (hw : ∀ i, IsReal (w i)) :
    ∀ i, IsReal (Cert.Spec.matProd x w i) := fun i =>
  IsReal.sum _ _ fun k _ => (hx _).mul (hw _)

/-- The tiled program's composition — the normalise / scale / shift / clamp map at the mean and the clamped
    variance obtained from the two column sums, the parameter rows read as one-row arrays — is the reference's
    function of the six arguments, when x, W and b have real entries. -/
theorem kernel_eq_ref (x : FV S100000x128) (e : (⟨S2x600000, .i32⟩ : BufTy).Contents (Elt Ideal)) (w : FV S128x128) (b g be : FV S128)
    (hx : ∀ i, IsReal (x i)) (hw : ∀ i, IsReal (w i)) (hb : ∀ i, IsReal (b i))
    (B2 MU VAR G2 BE2 : Cert.Spec.Arr 1 128)
    (hB2 : ∀ q : Fin 128, B2 (ix2 0 q) = b (ix1 q)) (hG2 : ∀ q : Fin 128, G2 (ix2 0 q) = g (ix1 q))
    (hBE2 : ∀ q : Fin 128, BE2 (ix2 0 q) = be (ix1 q))
    (hMU : ∀ q : Fin 128, MU (ix2 0 q)
      = Ideal.div (Cert.Spec.colSum (Cert.Shared.agg (F := Ideal) (Cert.Spec.matProd x w) e) B2 (ix2 0 q)) (Ideal.ofBits .f32 0x47C35000#32))
    (hVAR : ∀ q : Fin 128, VAR (ix2 0 q)
      = max (Ideal.div (Cert.Spec.colSumSq (Cert.Shared.agg (F := Ideal) (Cert.Spec.matProd x w) e) B2 (ix2 0 q)) (Ideal.ofBits .f32 0x47C35000#32)
          - MU (ix2 0 q) * MU (ix2 0 q)) (Ideal.ofBits .f32 0x00000000#32)) :
    Cert.Spec.bnRelu (Cert.Shared.agg (F := Ideal) (Cert.Spec.matProd x w) e) B2 MU VAR G2 BE2
      = Cert.Shared.refAll (F := Ideal) x e w b g be := by
  funext i
  obtain ⟨p, q, rfl⟩ : ∃ (p : Fin 100000) (q : Fin 128), i = ix2 p q := ⟨i 0, i 1, eq_ix2 i⟩
  have hagg : ∀ j, IsReal (Cert.Shared.agg (F := Ideal) (Cert.Spec.matProd x w) e j) :=
    Cert.Finite.agg_isReal _ e (matProd_isReal x w hx hw)
  generalize hAGG : Cert.Shared.agg (F := Ideal) (Cert.Spec.matProd x w) e = AGG at hagg hMU hVAR ⊢
  -- the column of a = AGG + b through q
  have hA : ∀ p' : Fin 100000, IsReal (AGG (ix2 p' q) + b (ix1 q)) := fun p' => (hagg _).add (hb _)
  have hcs : Cert.Spec.colSum AGG B2 (ix2 0 q) = ∑ p' : Fin 100000, (AGG (ix2 p' q) + b (ix1 q)) := by
    show (∑ p' : Fin 100000, (AGG (ix2 p' q) + B2 (ix2 0 q))) = _
    rw [hB2]
  have hcq : Cert.Spec.colSumSq AGG B2 (ix2 0 q)
      = ∑ p' : Fin 100000, (AGG (ix2 p' q) + b (ix1 q)) * (AGG (ix2 p' q) + b (ix1 q)) := by
    show (∑ p' : Fin 100000, (AGG (ix2 p' q) + B2 (ix2 0 q)) * (AGG (ix2 p' q) + B2 (ix2 0 q))) = _
    rw [hB2]
  have hmean : Cert.Shared.refMean (F := Ideal) (addf (F := Ideal) (φ := .f32) AGG (Cert.Shared.rowB b)) (ix1 q) = MU (ix2 0 q) := by
    rw [refMean_apply, hMU, hcs]
    simp only [addRowB_apply]
    exact Cert.Algebra.mean_eq fun p' => AGG (ix2 p' q) + b (ix1 q)
  have hvar : Cert.Shared.refVar (F := Ideal) (addf (F := Ideal) (φ := .f32) AGG (Cert.Shared.rowB b)) (ix1 q) = VAR (ix2 0 q) := by
    rw [refVar_apply, hmean, hVAR, hcq]
    simp only [addRowB_apply]
    rw [hMU, hcs]
    exact Cert.Algebra.var_eq (fun p' => AGG (ix2 p' q) + b (ix1 q)) hA
  unfold Cert.Shared.refAll
  rw [dot_eq, hAGG, refOut_apply, hmean, hvar, addRowB_apply, Cert.Algebra.zeroW_eq]
  show max ((G2 (ix2 0 q) * ((AGG (ix2 p q) + B2 (ix2 0 q)) - MU (ix2 0 q))) * Ideal.rsqrt (VAR (ix2 0 q) + Cert.Spec.eps)
    + BE2 (ix2 0 q)) 0 = _
  rw [hG2, hB2, hBE2]

end Cert.Bridge

end
-- ==== Proof.KernelValue.lean ====
/-
  The idealized kernel's result buffer, read back through its three tiled regions and the host stretches between
  them, is the reference's function of the six arguments when x, W and b have real entries: the first region
  leaves x · W, the host stretch after it the weighted neighbour sum, the second region the two column sums of
  that sum shifted by b, the next host stretch the mean and the clamped variance, and the third region the
  normalise / scale / shift / clamp map at those.
-/
import proofs.«127498_j87368224735831_2_alg».proof.Proof.Glue
import proofs.«127498_j87368224735831_2_alg».proof.Proof.Region0
import proofs.«127498_j87368224735831_2_alg».proof.Proof.Region1
import proofs.«127498_j87368224735831_2_alg».proof.Proof.Region2
import proofs.«127498_j87368224735831_2_alg».proof.Proof.Bridge

set_option maxRecDepth 16384

noncomputable section

namespace Cert.KernelIdeal.Value

open Cert.KernelIdeal Cert.KernelIdeal.Gen Cert.KernelIdeal.Glue Idealize.ShloMosaic Idealize.ShloMosaic.TcCoe Idealize.ShloMosaic.ValueIdx
open Cert.Spec

variable (m : (ℓ : Loc nD τ sig) → Buf (Elt Ideal) ℓ) (ρ : Dev nD → PrngReg) (c : Dev nD)

/-- A length-128 vector recast as a one-row array reads, at column q, the vector's q-th entry. -/
theorem row_apply (v : (⟨1, ![128]⟩ : Shape).Idx → EReal) (h : (⟨1, ![128]⟩ : Shape).ShapeCasts ⟨2, ![1, 128]⟩) (q : Fin 128) :
    shapeCast (⟨2, ![1, 128]⟩ : Shape) v h (ix2 0 q) = v (ix1 q) :=
  (shapeCast_addUnit_apply ![128] v h (ix2 0 q)).trans
    (congrArg v (funext fun a => by match a with | ⟨0, _⟩ => rfl))

/-- A scalar constant spread over a one-row array reads the constant everywhere. -/
theorem splatRow_apply (w : BitVec 32) (q : Fin 128) :
    broadcastInDim S1x128 ![] bcast_S_S1x128 (constant (F := Ideal) S_ .f32 w) (ix2 0 q) = Ideal.ofBits .f32 w :=
  broadcastInDim_apply _ bcast_S_S1x128 (constant (F := Ideal) S_ .f32 w) (ix2 0 q) ix0 (fun a => a.elim0)

/-- The first region's output at its exit: the matrix product of the first and third arguments. -/
theorem W4_prod : W4 m ρ c (Proc.devRef .tc main_v30)
    = Cert.Spec.matProd (m ((c : Thread nD τ).loc main_arg0)) (m ((c : Thread nD τ).loc main_arg2)) := by
  rw [W4_v30, Cert.KernelIdeal.Region0.value, V3_arg0, V3_arg2]

/-- The weighted neighbour sum the second and third regions read. -/
theorem agg_eq : V5 m ρ c main_v43
    = Cert.Shared.agg (F := Ideal) (Cert.Spec.matProd (m ((c : Thread nD τ).loc main_arg0)) (m ((c : Thread nD τ).loc main_arg2)))
        (m ((c : Thread nD τ).loc main_arg1)) :=
  V5_v43 m ρ c _ (W4_prod m ρ c)

/-- The result buffer is the reference's function of the arguments. -/
theorem result (hx : ∀ i, IsReal (m ((c : Thread nD τ).loc main_arg0) i)) (hw : ∀ i, IsReal (m ((c : Thread nD τ).loc main_arg2) i))
    (hb : ∀ i, IsReal (m ((c : Thread nD τ).loc main_arg3) i)) :
    W8 m ρ c (Proc.devRef .tc main_v56)
      = Cert.Shared.refAll (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [W8_v56, Cert.KernelIdeal.Region2.value, V7_v43, agg_eq]
  refine Cert.Bridge.kernel_eq_ref _ _ _ _ _ _ hx hw hb _ _ _ _ _ ?_ ?_ ?_ ?_ ?_
  · intro q; rw [V7_v44, V5_v44]; exact row_apply _ _ q
  · intro q; rw [V7_v45, V5_v45]; exact row_apply _ _ q
  · intro q; rw [V7_v46, V5_v46]; exact row_apply _ _ q
  · intro q
    rw [V7_v49, Cert.KernelIdeal.Region1.value_sum, agg_eq, ← V7_v44]
    exact congrArg (Ideal.div _) (splatRow_apply _ q)
  · intro q
    rw [V7_v55, Cert.KernelIdeal.Region1.value_sumsq, agg_eq, ← V7_v44]
    show max (Ideal.div _ (broadcastInDim S1x128 ![] bcast_S_S1x128 (constant (F := Ideal) S_ .f32 0x47C35000#32) (ix2 0 q)) - _ * _)
      (broadcastInDim S1x128 ![] bcast_S_S1x128 (constant (F := Ideal) S_ .f32 0x00000000#32) (ix2 0 q)) = _
    rw [splatRow_apply, splatRow_apply]

end Cert.KernelIdeal.Value

end
-- ==== Proof.RefRun.lean ====
/-
  The reference program's run, read back. The program is a straight line of 93 array operations; run in order
  from any launch memory it ends with its result array equal to one function of the six argument arrays, and the
  arguments as they were. The line is read in eleven consecutive stretches, each ending at a named stage of that
  function: the two edge lists with the self loops appended, the in-degree and its inverse square root, the
  per-edge weight, the feature product and its gathered rows, the weighted neighbour sum, the biased sum and its
  column mean, the column variance, the centred and scaled array, and the normalised, shifted and clamped result.
  Each stretch's result is stated as a function of what the buffers it reads held when it began; a buffer a stretch
  does not write holds what it held; composing the eleven gives the whole.
-/
import proofs.«127498_j87368224735831_2_alg».proof.Proof.Shared
import proofs.«127498_j87368224735831_2_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-! ## The line of operations, whole and in stretches -/

/-- The program's 93 operations, in order (the two outlined helpers' operations stand where they are called). -/
abbrev ops : List (HloOp τ sig (Elt F)) :=
  [ nullary main_v0 (iotaInDim S100000 32 0),
    unary main_arg1 main_v1 ((extractStridedSlice S1x600000 ![0, 0] · slices_S2x600000_S1x600000_0_0) : (⟨S2x600000, .i32⟩ : BufTy).Contents (Elt F) → (⟨S1x600000, .i32⟩ : BufTy).Contents (Elt F)),
    reshape main_v1 main_v2 rfl shapeCasts_S1x600000_S600000,
    binary main_v2 main_v0 main_v3 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)),
    unary main_arg1 main_v4 ((extractStridedSlice S1x600000 ![1, 0] · slices_S2x600000_S1x600000_1_0) : (⟨S2x600000, .i32⟩ : BufTy).Contents (Elt F) → (⟨S1x600000, .i32⟩ : BufTy).Contents (Elt F)),
    reshape main_v4 main_v5 rfl shapeCasts_S1x600000_S600000,
    binary main_v5 main_v0 main_v6 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)),
    nullary main_cst (constant S_ .f32 0x3F800000#32),
    unary main_cst main_v7 (broadcastInDim S700000 ![] bcast_S_S700000 : (⟨S_, .f32⟩ : BufTy).Contents (Elt F) → (⟨S700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S700000x1 ![0] bcast_S700000_S700000x1_0 : (⟨S700000, .i32⟩ : BufTy).Contents (Elt F) → (⟨S700000x1, .i32⟩ : BufTy).Contents (Elt F)),
    ternary main_v8 main_v9 main_v7 main_v10 ((fun x i u => Host.scatterAdd scatter_S100000_S700000x1_S700000_n_0_0_1 x i u) : (⟨S100000, .f32⟩ : BufTy).Contents (Elt F) → (⟨S700000x1, .i32⟩ : BufTy).Contents (Elt F) → (⟨S700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S700000 ![] bcast_S_S700000 : (⟨S_, .i32⟩ : BufTy).Contents (Elt F) → (⟨S700000, .i32⟩ : BufTy).Contents (Elt F)),
    binary main_v3 main_v15 main_v16 (cmpi .slt : (⟨S700000, .i32⟩ : BufTy).Contents (Elt F) → (⟨S700000, .i32⟩ : BufTy).Contents (Elt F) → (⟨S700000, .i1⟩ : BufTy).Contents (Elt F)),
    nullary main_c_3 (constantI S_ 32 100000#32),
    unary main_c_3 main_v17 (broadcastInDim S700000 ![] bcast_S_S700000 : (⟨S_, .i32⟩ : BufTy).Contents (Elt F) → (⟨S700000, .i32⟩ : BufTy).Contents (Elt F)),
    binary main_v3 main_v17 main_v18 (addi : (⟨S700000, .i32⟩ : BufTy).Contents (Elt F) → (⟨S700000, .i32⟩ : BufTy).Contents (Elt F) → (⟨S700000, .i32⟩ : BufTy).Contents (Elt F)),
    ternary main_v16 main_v18 main_v3 main_v19 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v19 main_v20 (broadcastInDim S700000x1 ![0] bcast_S700000_S700000x1_0 : (⟨S700000, .i32⟩ : BufTy).Contents (Elt F) → (⟨S700000x1, .i32⟩ : BufTy).Contents (Elt F)),
    binary main_v14 main_v20 main_v21 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    nullary main_c_4 (constantI S_ 32 0#32),
    unary main_c_4 main_v22 (broadcastInDim S700000 ![] bcast_S_S700000 : (⟨S_, .i32⟩ : BufTy).Contents (Elt F) → (⟨S700000, .i32⟩ : BufTy).Contents (Elt F)),
    binary main_v6 main_v22 main_v23 (cmpi .slt : (⟨S700000, .i32⟩ : BufTy).Contents (Elt F) → (⟨S700000, .i32⟩ : BufTy).Contents (Elt F) → (⟨S700000, .i1⟩ : BufTy).Contents (Elt F)),
    nullary main_c_5 (constantI S_ 32 100000#32),
    unary main_c_5 main_v24 (broadcastInDim S700000 ![] bcast_S_S700000 : (⟨S_, .i32⟩ : BufTy).Contents (Elt F) → (⟨S700000, .i32⟩ : BufTy).Contents (Elt F)),
    binary main_v6 main_v24 main_v25 (addi : (⟨S700000, .i32⟩ : BufTy).Contents (Elt F) → (⟨S700000, .i32⟩ : BufTy).Contents (Elt F) → (⟨S700000, .i32⟩ : BufTy).Contents (Elt F)),
    ternary main_v23 main_v25 main_v6 main_v26 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v26 main_v27 (broadcastInDim S700000x1 ![0] bcast_S700000_S700000x1_0 : (⟨S700000, .i32⟩ : BufTy).Contents (Elt F) → (⟨S700000x1, .i32⟩ : BufTy).Contents (Elt F)),
    binary main_v14 main_v27 main_v28 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    binary main_v21 main_v28 main_v29 (mulf : (⟨S700000, .f32⟩ : BufTy).Contents (Elt F) → (⟨S700000, .f32⟩ : BufTy).Contents (Elt F) → (⟨S700000, .f32⟩ : BufTy).Contents (Elt F)),
    binary main_arg0 main_arg2 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v31 (broadcastInDim S700000 ![] bcast_S_S700000 : (⟨S_, .i32⟩ : BufTy).Contents (Elt F) → (⟨S700000, .i32⟩ : BufTy).Contents (Elt F)),
    binary main_v3 main_v31 main_v32 (cmpi .slt : (⟨S700000, .i32⟩ : BufTy).Contents (Elt F) → (⟨S700000, .i32⟩ : BufTy).Contents (Elt F) → (⟨S700000, .i1⟩ : BufTy).Contents (Elt F)),
    nullary main_c_7 (constantI S_ 32 100000#32),
    unary main_c_7 main_v33 (broadcastInDim S700000 ![] bcast_S_S700000 : (⟨S_, .i32⟩ : BufTy).Contents (Elt F) → (⟨S700000, .i32⟩ : BufTy).Contents (Elt F)),
    binary main_v3 main_v33 main_v34 (addi : (⟨S700000, .i32⟩ : BufTy).Contents (Elt F) → (⟨S700000, .i32⟩ : BufTy).Contents (Elt F) → (⟨S700000, .i32⟩ : BufTy).Contents (Elt F)),
    ternary main_v32 main_v34 main_v3 main_v35 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v35 main_v36 (broadcastInDim S700000x1 ![0] bcast_S700000_S700000x1_0 : (⟨S700000, .i32⟩ : BufTy).Contents (Elt F) → (⟨S700000x1, .i32⟩ : BufTy).Contents (Elt F)),
    binary main_v30 main_v36 main_v37 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    unary main_v29 main_v38 (broadcastInDim S700000x1 ![0] bcast_S700000_S700000x1_0 : (⟨S700000, .f32⟩ : BufTy).Contents (Elt F) → (⟨S700000x1, .f32⟩ : BufTy).Contents (Elt F)),
    unary main_v38 main_v39 (broadcastInDim S700000x128 ![0, 1] bcast_S700000x1_S700000x128_0_1 : (⟨S700000x1, .f32⟩ : BufTy).Contents (Elt F) → (⟨S700000x128, .f32⟩ : BufTy).Contents (Elt F)),
    binary main_v37 main_v39 main_v40 (mulf : (⟨S700000x128, .f32⟩ : BufTy).Contents (Elt F) → (⟨S700000x128, .f32⟩ : BufTy).Contents (Elt F) → (⟨S700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S700000x1 ![0] bcast_S700000_S700000x1_0 : (⟨S700000, .i32⟩ : BufTy).Contents (Elt F) → (⟨S700000x1, .i32⟩ : BufTy).Contents (Elt F)),
    ternary main_v41 main_v42 main_v40 main_v43 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    nullary main_cst_9 (constant S_ .f32 0x00000000#32),
    binary main_v46 main_cst_9 main_v47 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_10 (constant S_ .f32 0x47C35000#32),
    unary main_cst_10 main_v48 (broadcastInDim S128 ![] bcast_S_S128 : (⟨S_, .f32⟩ : BufTy).Contents (Elt F) → (⟨S128, .f32⟩ : BufTy).Contents (Elt F)),
    binary main_v47 main_v48 main_v49 (Host.divf : (⟨S128, .f32⟩ : BufTy).Contents (Elt F) → (⟨S128, .f32⟩ : BufTy).Contents (Elt F) → (⟨S128, .f32⟩ : BufTy).Contents (Elt F)),
    unary main_v49 main_v50 (broadcastInDim S1x128 ![1] bcast_S128_S1x128_1 : (⟨S128, .f32⟩ : BufTy).Contents (Elt F) → (⟨S1x128, .f32⟩ : BufTy).Contents (Elt F)),
    unary main_v50 main_v51 (broadcastInDim S100000x128 ![0, 1] bcast_S1x128_S100000x128_0_1 : (⟨S1x128, .f32⟩ : BufTy).Contents (Elt F) → (⟨S100000x128, .f32⟩ : BufTy).Contents (Elt F)),
    binary main_v46 main_v51 main_v52 (subf : (⟨S100000x128, .f32⟩ : BufTy).Contents (Elt F) → (⟨S100000x128, .f32⟩ : BufTy).Contents (Elt F) → (⟨S100000x128, .f32⟩ : BufTy).Contents (Elt F)),
    binary main_v52 main_v52 main_v53 (mulf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x00000000#32),
    binary main_v53 main_cst_11 main_v54 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_12 (constant S_ .f32 0x47C35000#32),
    unary main_cst_12 main_v55 (broadcastInDim S128 ![] bcast_S_S128 : (⟨S_, .f32⟩ : BufTy).Contents (Elt F) → (⟨S128, .f32⟩ : BufTy).Contents (Elt F)),
    binary main_v54 main_v55 main_v56 (Host.divf : (⟨S128, .f32⟩ : BufTy).Contents (Elt F) → (⟨S128, .f32⟩ : BufTy).Contents (Elt F) → (⟨S128, .f32⟩ : BufTy).Contents (Elt F)),
    unary main_v49 main_v57 (broadcastInDim S1x128 ![1] bcast_S128_S1x128_1 : (⟨S128, .f32⟩ : BufTy).Contents (Elt F) → (⟨S1x128, .f32⟩ : BufTy).Contents (Elt F)),
    unary main_v57 main_v58 (broadcastInDim S100000x128 ![0, 1] bcast_S1x128_S100000x128_0_1 : (⟨S1x128, .f32⟩ : BufTy).Contents (Elt F) → (⟨S100000x128, .f32⟩ : BufTy).Contents (Elt F)),
    binary main_v46 main_v58 main_v59 (subf : (⟨S100000x128, .f32⟩ : BufTy).Contents (Elt F) → (⟨S100000x128, .f32⟩ : BufTy).Contents (Elt F) → (⟨S100000x128, .f32⟩ : BufTy).Contents (Elt F)),
    unary main_arg4 main_v60 (broadcastInDim S1x128 ![1] bcast_S128_S1x128_1 : (⟨S128, .f32⟩ : BufTy).Contents (Elt F) → (⟨S1x128, .f32⟩ : BufTy).Contents (Elt F)),
    unary main_v60 main_v61 (broadcastInDim S100000x128 ![0, 1] bcast_S1x128_S100000x128_0_1 : (⟨S1x128, .f32⟩ : BufTy).Contents (Elt F) → (⟨S100000x128, .f32⟩ : BufTy).Contents (Elt F)),
    binary main_v61 main_v59 main_v62 (mulf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x3727C5AC#32),
    unary main_cst_13 main_v63 (broadcastInDim S128 ![] bcast_S_S128 : (⟨S_, .f32⟩ : BufTy).Contents (Elt F) → (⟨S128, .f32⟩ : BufTy).Contents (Elt F)),
    binary main_v56 main_v63 main_v64 (addf : (⟨S128, .f32⟩ : BufTy).Contents (Elt F) → (⟨S128, .f32⟩ : BufTy).Contents (Elt F) → (⟨S128, .f32⟩ : BufTy).Contents (Elt F)),
    unary main_v64 main_v65 (Host.rsqrt : (⟨S128, .f32⟩ : BufTy).Contents (Elt F) → (⟨S128, .f32⟩ : BufTy).Contents (Elt F)),
    unary main_v65 main_v66 (broadcastInDim S1x128 ![1] bcast_S128_S1x128_1 : (⟨S128, .f32⟩ : BufTy).Contents (Elt F) → (⟨S1x128, .f32⟩ : BufTy).Contents (Elt F)),
    unary main_v66 main_v67 (broadcastInDim S100000x128 ![0, 1] bcast_S1x128_S100000x128_0_1 : (⟨S1x128, .f32⟩ : BufTy).Contents (Elt F) → (⟨S100000x128, .f32⟩ : BufTy).Contents (Elt F)),
    binary main_v62 main_v67 main_v68 (mulf : (⟨S100000x128, .f32⟩ : BufTy).Contents (Elt F) → (⟨S100000x128, .f32⟩ : BufTy).Contents (Elt F) → (⟨S100000x128, .f32⟩ : BufTy).Contents (Elt F)),
    unary main_arg5 main_v69 (broadcastInDim S1x128 ![1] bcast_S128_S1x128_1 : (⟨S128, .f32⟩ : BufTy).Contents (Elt F) → (⟨S1x128, .f32⟩ : BufTy).Contents (Elt F)),
    unary main_v69 main_v70 (broadcastInDim S100000x128 ![0, 1] bcast_S1x128_S100000x128_0_1 : (⟨S1x128, .f32⟩ : BufTy).Contents (Elt F) → (⟨S100000x128, .f32⟩ : BufTy).Contents (Elt F)),
    binary main_v68 main_v70 main_v71 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v71) (TRef.of (T := ⟨S100000x128, .f32⟩) main_call1_v0) (TRef.of (T := ⟨S100000x128, .f32⟩) main_v72) maximumf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

/-- One operation's written buffer is in the list of written buffers. -/
local macro "w1" : term =>
  `(by simp only [nullary_writes, unary_writes, binary_writes, ternary_writes, reshape_writes, Finset.singleton_subset_iff,
        List.mem_toFinset]; exact List.mem_map_of_mem (by decide))

/-- The node ids `0 … 99999` and the first row of the edge array as a list. -/
def sA : List (HloOp τ sig (Elt F)) :=
  [ nullary main_v0 (iotaInDim S100000 32 0),
    unary main_arg1 main_v1 ((extractStridedSlice S1x600000 ![0, 0] · slices_S2x600000_S1x600000_0_0) : (⟨S2x600000, .i32⟩ : BufTy).Contents (Elt F) → (⟨S1x600000, .i32⟩ : BufTy).Contents (Elt F)),
    reshape main_v1 main_v2 rfl shapeCasts_S1x600000_S600000 ]
/-- The buffers `sA` writes. -/
abbrev sA_W : List (Ref sig .tc) := [main_v0, main_v1, main_v2]
theorem sA_writes : (sA : List (HloOp τ sig (Elt F))).Forall fun op => op.writes ⊆ (sA_W.map (Proc.devRef (τ := τ) .tc)).toFinset := by
  simp only [sA, List.Forall]; exact ⟨w1, w1, w1⟩

/-- The source ids with the self loops appended; the second row of the edge array as a list. -/
def sB : List (HloOp τ sig (Elt F)) :=
  [ binary main_v2 main_v0 main_v3 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)),
    unary main_arg1 main_v4 ((extractStridedSlice S1x600000 ![1, 0] · slices_S2x600000_S1x600000_1_0) : (⟨S2x600000, .i32⟩ : BufTy).Contents (Elt F) → (⟨S1x600000, .i32⟩ : BufTy).Contents (Elt F)),
    reshape main_v4 main_v5 rfl shapeCasts_S1x600000_S600000 ]
/-- The buffers `sB` writes. -/
abbrev sB_W : List (Ref sig .tc) := [main_v3, main_v4, main_v5]
theorem sB_writes : (sB : List (HloOp τ sig (Elt F))).Forall fun op => op.writes ⊆ (sB_W.map (Proc.devRef (τ := τ) .tc)).toFinset := by
  simp only [sB, List.Forall]; exact ⟨w1, w1, w1⟩

/-- The target ids with the self loops appended; the in-degree; its inverse square root where positive. -/
def sC : List (HloOp τ sig (Elt F)) :=
  [ binary main_v5 main_v0 main_v6 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)),
    nullary main_cst (constant S_ .f32 0x3F800000#32),
    unary main_cst main_v7 (broadcastInDim S700000 ![] bcast_S_S700000 : (⟨S_, .f32⟩ : BufTy).Contents (Elt F) → (⟨S700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S700000x1 ![0] bcast_S700000_S700000x1_0 : (⟨S700000, .i32⟩ : BufTy).Contents (Elt F) → (⟨S700000x1, .i32⟩ : BufTy).Contents (Elt F)),
    ternary main_v8 main_v9 main_v7 main_v10 ((fun x i u => Host.scatterAdd scatter_S100000_S700000x1_S700000_n_0_0_1 x i u) : (⟨S100000, .f32⟩ : BufTy).Contents (Elt F) → (⟨S700000x1, .i32⟩ : BufTy).Contents (Elt F) → (⟨S700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]
/-- The buffers `sC` writes. -/
abbrev sC_W : List (Ref sig .tc) := [main_v6, main_cst, main_v7, main_cst_0, main_v8, main_v9, main_v10, main_cst_1, main_v11, main_v12, main_v13, main_cst_2, main_call0_v0, main_call0_v1, main_v14]
theorem sC_writes : (sC : List (HloOp τ sig (Elt F))).Forall fun op => op.writes ⊆ (sC_W.map (Proc.devRef (τ := τ) .tc)).toFinset := by
  simp only [sC, List.Forall]; exact ⟨w1, w1, w1, w1, w1, w1, w1, w1, w1, w1, w1, w1, w1, w1, w1⟩

/-- The inverse square-root degree at every edge's (wrapped) source. -/
def sD : List (HloOp τ sig (Elt F)) :=
  [ nullary main_c (constantI S_ 32 0#32),
    unary main_c main_v15 (broadcastInDim S700000 ![] bcast_S_S700000 : (⟨S_, .i32⟩ : BufTy).Contents (Elt F) → (⟨S700000, .i32⟩ : BufTy).Contents (Elt F)),
    binary main_v3 main_v15 main_v16 (cmpi .slt : (⟨S700000, .i32⟩ : BufTy).Contents (Elt F) → (⟨S700000, .i32⟩ : BufTy).Contents (Elt F) → (⟨S700000, .i1⟩ : BufTy).Contents (Elt F)),
    nullary main_c_3 (constantI S_ 32 100000#32),
    unary main_c_3 main_v17 (broadcastInDim S700000 ![] bcast_S_S700000 : (⟨S_, .i32⟩ : BufTy).Contents (Elt F) → (⟨S700000, .i32⟩ : BufTy).Contents (Elt F)),
    binary main_v3 main_v17 main_v18 (addi : (⟨S700000, .i32⟩ : BufTy).Contents (Elt F) → (⟨S700000, .i32⟩ : BufTy).Contents (Elt F) → (⟨S700000, .i32⟩ : BufTy).Contents (Elt F)),
    ternary main_v16 main_v18 main_v3 main_v19 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v19 main_v20 (broadcastInDim S700000x1 ![0] bcast_S700000_S700000x1_0 : (⟨S700000, .i32⟩ : BufTy).Contents (Elt F) → (⟨S700000x1, .i32⟩ : BufTy).Contents (Elt F)),
    binary main_v14 main_v20 main_v21 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)) ]
/-- The buffers `sD` writes. -/
abbrev sD_W : List (Ref sig .tc) := [main_c, main_v15, main_v16, main_c_3, main_v17, main_v18, main_v19, main_v20, main_v21]
theorem sD_writes : (sD : List (HloOp τ sig (Elt F))).Forall fun op => op.writes ⊆ (sD_W.map (Proc.devRef (τ := τ) .tc)).toFinset := by
  simp only [sD, List.Forall]; exact ⟨w1, w1, w1, w1, w1, w1, w1, w1, w1⟩

/-- The same at every edge's (wrapped) target, and the product of the two: the edge weight. -/
def sE : List (HloOp τ sig (Elt F)) :=
  [ nullary main_c_4 (constantI S_ 32 0#32),
    unary main_c_4 main_v22 (broadcastInDim S700000 ![] bcast_S_S700000 : (⟨S_, .i32⟩ : BufTy).Contents (Elt F) → (⟨S700000, .i32⟩ : BufTy).Contents (Elt F)),
    binary main_v6 main_v22 main_v23 (cmpi .slt : (⟨S700000, .i32⟩ : BufTy).Contents (Elt F) → (⟨S700000, .i32⟩ : BufTy).Contents (Elt F) → (⟨S700000, .i1⟩ : BufTy).Contents (Elt F)),
    nullary main_c_5 (constantI S_ 32 100000#32),
    unary main_c_5 main_v24 (broadcastInDim S700000 ![] bcast_S_S700000 : (⟨S_, .i32⟩ : BufTy).Contents (Elt F) → (⟨S700000, .i32⟩ : BufTy).Contents (Elt F)),
    binary main_v6 main_v24 main_v25 (addi : (⟨S700000, .i32⟩ : BufTy).Contents (Elt F) → (⟨S700000, .i32⟩ : BufTy).Contents (Elt F) → (⟨S700000, .i32⟩ : BufTy).Contents (Elt F)),
    ternary main_v23 main_v25 main_v6 main_v26 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v26 main_v27 (broadcastInDim S700000x1 ![0] bcast_S700000_S700000x1_0 : (⟨S700000, .i32⟩ : BufTy).Contents (Elt F) → (⟨S700000x1, .i32⟩ : BufTy).Contents (Elt F)),
    binary main_v14 main_v27 main_v28 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    binary main_v21 main_v28 main_v29 (mulf : (⟨S700000, .f32⟩ : BufTy).Contents (Elt F) → (⟨S700000, .f32⟩ : BufTy).Contents (Elt F) → (⟨S700000, .f32⟩ : BufTy).Contents (Elt F)) ]
/-- The buffers `sE` writes. -/
abbrev sE_W : List (Ref sig .tc) := [main_c_4, main_v22, main_v23, main_c_5, main_v24, main_v25, main_v26, main_v27, main_v28, main_v29]
theorem sE_writes : (sE : List (HloOp τ sig (Elt F))).Forall fun op => op.writes ⊆ (sE_W.map (Proc.devRef (τ := τ) .tc)).toFinset := by
  simp only [sE, List.Forall]; exact ⟨w1, w1, w1, w1, w1, w1, w1, w1, w1, w1⟩

/-- The feature product and its rows gathered at every edge's (wrapped) source. -/
def sF : List (HloOp τ sig (Elt F)) :=
  [ binary main_arg0 main_arg2 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v31 (broadcastInDim S700000 ![] bcast_S_S700000 : (⟨S_, .i32⟩ : BufTy).Contents (Elt F) → (⟨S700000, .i32⟩ : BufTy).Contents (Elt F)),
    binary main_v3 main_v31 main_v32 (cmpi .slt : (⟨S700000, .i32⟩ : BufTy).Contents (Elt F) → (⟨S700000, .i32⟩ : BufTy).Contents (Elt F) → (⟨S700000, .i1⟩ : BufTy).Contents (Elt F)),
    nullary main_c_7 (constantI S_ 32 100000#32),
    unary main_c_7 main_v33 (broadcastInDim S700000 ![] bcast_S_S700000 : (⟨S_, .i32⟩ : BufTy).Contents (Elt F) → (⟨S700000, .i32⟩ : BufTy).Contents (Elt F)),
    binary main_v3 main_v33 main_v34 (addi : (⟨S700000, .i32⟩ : BufTy).Contents (Elt F) → (⟨S700000, .i32⟩ : BufTy).Contents (Elt F) → (⟨S700000, .i32⟩ : BufTy).Contents (Elt F)),
    ternary main_v32 main_v34 main_v3 main_v35 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v35 main_v36 (broadcastInDim S700000x1 ![0] bcast_S700000_S700000x1_0 : (⟨S700000, .i32⟩ : BufTy).Contents (Elt F) → (⟨S700000x1, .i32⟩ : BufTy).Contents (Elt F)),
    binary main_v30 main_v36 main_v37 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)) ]
/-- The buffers `sF` writes. -/
abbrev sF_W : List (Ref sig .tc) := [main_v30, main_c_6, main_v31, main_v32, main_c_7, main_v33, main_v34, main_v35, main_v36, main_v37]
theorem sF_writes : (sF : List (HloOp τ sig (Elt F))).Forall fun op => op.writes ⊆ (sF_W.map (Proc.devRef (τ := τ) .tc)).toFinset := by
  simp only [sF, List.Forall]; exact ⟨w1, w1, w1, w1, w1, w1, w1, w1, w1, w1⟩

/-- The gathered rows times the edge weight, added up at the targets: the weighted neighbour sum. -/
def sG : List (HloOp τ sig (Elt F)) :=
  [ unary main_v29 main_v38 (broadcastInDim S700000x1 ![0] bcast_S700000_S700000x1_0 : (⟨S700000, .f32⟩ : BufTy).Contents (Elt F) → (⟨S700000x1, .f32⟩ : BufTy).Contents (Elt F)),
    unary main_v38 main_v39 (broadcastInDim S700000x128 ![0, 1] bcast_S700000x1_S700000x128_0_1 : (⟨S700000x1, .f32⟩ : BufTy).Contents (Elt F) → (⟨S700000x128, .f32⟩ : BufTy).Contents (Elt F)),
    binary main_v37 main_v39 main_v40 (mulf : (⟨S700000x128, .f32⟩ : BufTy).Contents (Elt F) → (⟨S700000x128, .f32⟩ : BufTy).Contents (Elt F) → (⟨S700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S700000x1 ![0] bcast_S700000_S700000x1_0 : (⟨S700000, .i32⟩ : BufTy).Contents (Elt F) → (⟨S700000x1, .i32⟩ : BufTy).Contents (Elt F)),
    ternary main_v41 main_v42 main_v40 main_v43 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)) ]
/-- The buffers `sG` writes. -/
abbrev sG_W : List (Ref sig .tc) := [main_v38, main_v39, main_v40, main_cst_8, main_v41, main_v42, main_v43]
theorem sG_writes : (sG : List (HloOp τ sig (Elt F))).Forall fun op => op.writes ⊆ (sG_W.map (Proc.devRef (τ := τ) .tc)).toFinset := by
  simp only [sG, List.Forall]; exact ⟨w1, w1, w1, w1, w1, w1, w1⟩

/-- The bias added, and the column mean of the sum. -/
def sH : List (HloOp τ sig (Elt F)) :=
  [ unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    nullary main_cst_9 (constant S_ .f32 0x00000000#32),
    binary main_v46 main_cst_9 main_v47 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_10 (constant S_ .f32 0x47C35000#32),
    unary main_cst_10 main_v48 (broadcastInDim S128 ![] bcast_S_S128 : (⟨S_, .f32⟩ : BufTy).Contents (Elt F) → (⟨S128, .f32⟩ : BufTy).Contents (Elt F)),
    binary main_v47 main_v48 main_v49 (Host.divf : (⟨S128, .f32⟩ : BufTy).Contents (Elt F) → (⟨S128, .f32⟩ : BufTy).Contents (Elt F) → (⟨S128, .f32⟩ : BufTy).Contents (Elt F)) ]
/-- The buffers `sH` writes. -/
abbrev sH_W : List (Ref sig .tc) := [main_v44, main_v45, main_v46, main_cst_9, main_v47, main_cst_10, main_v48, main_v49]
theorem sH_writes : (sH : List (HloOp τ sig (Elt F))).Forall fun op => op.writes ⊆ (sH_W.map (Proc.devRef (τ := τ) .tc)).toFinset := by
  simp only [sH, List.Forall]; exact ⟨w1, w1, w1, w1, w1, w1, w1, w1⟩

/-- The column variance about the mean. -/
def sI : List (HloOp τ sig (Elt F)) :=
  [ unary main_v49 main_v50 (broadcastInDim S1x128 ![1] bcast_S128_S1x128_1 : (⟨S128, .f32⟩ : BufTy).Contents (Elt F) → (⟨S1x128, .f32⟩ : BufTy).Contents (Elt F)),
    unary main_v50 main_v51 (broadcastInDim S100000x128 ![0, 1] bcast_S1x128_S100000x128_0_1 : (⟨S1x128, .f32⟩ : BufTy).Contents (Elt F) → (⟨S100000x128, .f32⟩ : BufTy).Contents (Elt F)),
    binary main_v46 main_v51 main_v52 (subf : (⟨S100000x128, .f32⟩ : BufTy).Contents (Elt F) → (⟨S100000x128, .f32⟩ : BufTy).Contents (Elt F) → (⟨S100000x128, .f32⟩ : BufTy).Contents (Elt F)),
    binary main_v52 main_v52 main_v53 (mulf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x00000000#32),
    binary main_v53 main_cst_11 main_v54 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_12 (constant S_ .f32 0x47C35000#32),
    unary main_cst_12 main_v55 (broadcastInDim S128 ![] bcast_S_S128 : (⟨S_, .f32⟩ : BufTy).Contents (Elt F) → (⟨S128, .f32⟩ : BufTy).Contents (Elt F)),
    binary main_v54 main_v55 main_v56 (Host.divf : (⟨S128, .f32⟩ : BufTy).Contents (Elt F) → (⟨S128, .f32⟩ : BufTy).Contents (Elt F) → (⟨S128, .f32⟩ : BufTy).Contents (Elt F)) ]
/-- The buffers `sI` writes. -/
abbrev sI_W : List (Ref sig .tc) := [main_v50, main_v51, main_v52, main_v53, main_cst_11, main_v54, main_cst_12, main_v55, main_v56]
theorem sI_writes : (sI : List (HloOp τ sig (Elt F))).Forall fun op => op.writes ⊆ (sI_W.map (Proc.devRef (τ := τ) .tc)).toFinset := by
  simp only [sI, List.Forall]; exact ⟨w1, w1, w1, w1, w1, w1, w1, w1, w1⟩

/-- The centred array scaled by the first per-column parameter. -/
def sJ : List (HloOp τ sig (Elt F)) :=
  [ unary main_v49 main_v57 (broadcastInDim S1x128 ![1] bcast_S128_S1x128_1 : (⟨S128, .f32⟩ : BufTy).Contents (Elt F) → (⟨S1x128, .f32⟩ : BufTy).Contents (Elt F)),
    unary main_v57 main_v58 (broadcastInDim S100000x128 ![0, 1] bcast_S1x128_S100000x128_0_1 : (⟨S1x128, .f32⟩ : BufTy).Contents (Elt F) → (⟨S100000x128, .f32⟩ : BufTy).Contents (Elt F)),
    binary main_v46 main_v58 main_v59 (subf : (⟨S100000x128, .f32⟩ : BufTy).Contents (Elt F) → (⟨S100000x128, .f32⟩ : BufTy).Contents (Elt F) → (⟨S100000x128, .f32⟩ : BufTy).Contents (Elt F)),
    unary main_arg4 main_v60 (broadcastInDim S1x128 ![1] bcast_S128_S1x128_1 : (⟨S128, .f32⟩ : BufTy).Contents (Elt F) → (⟨S1x128, .f32⟩ : BufTy).Contents (Elt F)),
    unary main_v60 main_v61 (broadcastInDim S100000x128 ![0, 1] bcast_S1x128_S100000x128_0_1 : (⟨S1x128, .f32⟩ : BufTy).Contents (Elt F) → (⟨S100000x128, .f32⟩ : BufTy).Contents (Elt F)),
    binary main_v61 main_v59 main_v62 (mulf : (⟨S100000x128, .f32⟩ : BufTy).Contents (Elt F) → (⟨S100000x128, .f32⟩ : BufTy).Contents (Elt F) → (⟨S100000x128, .f32⟩ : BufTy).Contents (Elt F)) ]
/-- The buffers `sJ` writes. -/
abbrev sJ_W : List (Ref sig .tc) := [main_v57, main_v58, main_v59, main_v60, main_v61, main_v62]
theorem sJ_writes : (sJ : List (HloOp τ sig (Elt F))).Forall fun op => op.writes ⊆ (sJ_W.map (Proc.devRef (τ := τ) .tc)).toFinset := by
  simp only [sJ, List.Forall]; exact ⟨w1, w1, w1, w1, w1, w1⟩

/-- Normalised by the variance, shifted, clamped below at zero. -/
def sK : List (HloOp τ sig (Elt F)) :=
  [ nullary main_cst_13 (constant S_ .f32 0x3727C5AC#32),
    unary main_cst_13 main_v63 (broadcastInDim S128 ![] bcast_S_S128 : (⟨S_, .f32⟩ : BufTy).Contents (Elt F) → (⟨S128, .f32⟩ : BufTy).Contents (Elt F)),
    binary main_v56 main_v63 main_v64 (addf : (⟨S128, .f32⟩ : BufTy).Contents (Elt F) → (⟨S128, .f32⟩ : BufTy).Contents (Elt F) → (⟨S128, .f32⟩ : BufTy).Contents (Elt F)),
    unary main_v64 main_v65 (Host.rsqrt : (⟨S128, .f32⟩ : BufTy).Contents (Elt F) → (⟨S128, .f32⟩ : BufTy).Contents (Elt F)),
    unary main_v65 main_v66 (broadcastInDim S1x128 ![1] bcast_S128_S1x128_1 : (⟨S128, .f32⟩ : BufTy).Contents (Elt F) → (⟨S1x128, .f32⟩ : BufTy).Contents (Elt F)),
    unary main_v66 main_v67 (broadcastInDim S100000x128 ![0, 1] bcast_S1x128_S100000x128_0_1 : (⟨S1x128, .f32⟩ : BufTy).Contents (Elt F) → (⟨S100000x128, .f32⟩ : BufTy).Contents (Elt F)),
    binary main_v62 main_v67 main_v68 (mulf : (⟨S100000x128, .f32⟩ : BufTy).Contents (Elt F) → (⟨S100000x128, .f32⟩ : BufTy).Contents (Elt F) → (⟨S100000x128, .f32⟩ : BufTy).Contents (Elt F)),
    unary main_arg5 main_v69 (broadcastInDim S1x128 ![1] bcast_S128_S1x128_1 : (⟨S128, .f32⟩ : BufTy).Contents (Elt F) → (⟨S1x128, .f32⟩ : BufTy).Contents (Elt F)),
    unary main_v69 main_v70 (broadcastInDim S100000x128 ![0, 1] bcast_S1x128_S100000x128_0_1 : (⟨S1x128, .f32⟩ : BufTy).Contents (Elt F) → (⟨S100000x128, .f32⟩ : BufTy).Contents (Elt F)),
    binary main_v68 main_v70 main_v71 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v71) (TRef.of (T := ⟨S100000x128, .f32⟩) main_call1_v0) (TRef.of (T := ⟨S100000x128, .f32⟩) main_v72) maximumf ]
/-- The buffers `sK` writes. -/
abbrev sK_W : List (Ref sig .tc) := [main_cst_13, main_v63, main_v64, main_v65, main_v66, main_v67, main_v68, main_v69, main_v70, main_v71, main_call1_cst, main_call1_v0, main_v72]
theorem sK_writes : (sK : List (HloOp τ sig (Elt F))).Forall fun op => op.writes ⊆ (sK_W.map (Proc.devRef (τ := τ) .tc)).toFinset := by
  simp only [sK, List.Forall]; exact ⟨w1, w1, w1, w1, w1, w1, w1, w1, w1, w1, w1, w1, w1⟩

/-- The line is its eleven stretches end to end. -/
theorem ops_eq : (ops : List (HloOp τ sig (Elt F))) = sA ++ sB ++ sC ++ sD ++ sE ++ sF ++ sG ++ sH ++ sI ++ sJ ++ sK := rfl

/-- Running two lines one after the other is running their concatenation. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The buffers the whole line writes. -/
abbrev ops_W : List (Ref sig .tc) := [main_v0, main_v1, main_v2, main_v3, main_v4, main_v5, main_v6, main_cst, main_v7, main_cst_0, main_v8, main_v9, main_v10, main_cst_1, main_v11, main_v12, main_v13, main_cst_2, main_call0_v0, main_call0_v1, main_v14, main_c, main_v15, main_v16, main_c_3, main_v17, main_v18, main_v19, main_v20, main_v21, main_c_4, main_v22, main_v23, main_c_5, main_v24, main_v25, main_v26, main_v27, main_v28, main_v29, main_v30, main_c_6, main_v31, main_v32, main_c_7, main_v33, main_v34, main_v35, main_v36, main_v37, main_v38, main_v39, main_v40, main_cst_8, main_v41, main_v42, main_v43, main_v44, main_v45, main_v46, main_cst_9, main_v47, main_cst_10, main_v48, main_v49, main_v50, main_v51, main_v52, main_v53, main_cst_11, main_v54, main_cst_12, main_v55, main_v56, main_v57, main_v58, main_v59, main_v60, main_v61, main_v62, main_cst_13, main_v63, main_v64, main_v65, main_v66, main_v67, main_v68, main_v69, main_v70, main_v71, main_call1_cst, main_call1_v0, main_v72]
set_option maxRecDepth 8192 in
theorem ops_writes : (ops : List (HloOp τ sig (Elt F))).Forall fun op => op.writes ⊆ (ops_W.map (Proc.devRef (τ := τ) .tc)).toFinset := by
  simp only [List.Forall]; exact ⟨w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1⟩
/-- A buffer the line does not write holds at the end what it held at the start. -/
theorem ops_keep (V : Valuation τ sig (Elt F)) (r : Ref sig .tc) (h : r ∉ ops_W) :
    after ops V (Proc.devRef .tc r) = V (Proc.devRef .tc r) := after_of_writes_sub ops V ops_writes h

/-! ## The buffers after each stretch -/

/-- What the buffers hold after the first stretch, from contents `V`. -/
def VA (V : Valuation τ sig (Elt F)) : Valuation τ sig (Elt F) := after sA V
/-- A buffer `sA` does not write holds what it held before it. -/
theorem VA_keep (V : Valuation τ sig (Elt F)) {r : Ref sig .tc} (h : r ∉ sA_W) :
    VA V (no_index (Proc.devRef .tc r)) = V (Proc.devRef .tc r) := after_of_writes_sub sA _ sA_writes h

/-- What the buffers hold after the second, from contents `V`. -/
def VB (V : Valuation τ sig (Elt F)) : Valuation τ sig (Elt F) := after sB (VA V)
/-- A buffer `sB` does not write holds what it held before it. -/
theorem VB_keep (V : Valuation τ sig (Elt F)) {r : Ref sig .tc} (h : r ∉ sB_W) :
    VB V (no_index (Proc.devRef .tc r)) = VA V (Proc.devRef .tc r) := after_of_writes_sub sB _ sB_writes h

/-- What the buffers hold after the third, from contents `V`. -/
def VC (V : Valuation τ sig (Elt F)) : Valuation τ sig (Elt F) := after sC (VB V)
/-- A buffer `sC` does not write holds what it held before it. -/
theorem VC_keep (V : Valuation τ sig (Elt F)) {r : Ref sig .tc} (h : r ∉ sC_W) :
    VC V (no_index (Proc.devRef .tc r)) = VB V (Proc.devRef .tc r) := after_of_writes_sub sC _ sC_writes h

/-- What the buffers hold after the fourth, from contents `V`. -/
def VD (V : Valuation τ sig (Elt F)) : Valuation τ sig (Elt F) := after sD (VC V)
/-- A buffer `sD` does not write holds what it held before it. -/
theorem VD_keep (V : Valuation τ sig (Elt F)) {r : Ref sig .tc} (h : r ∉ sD_W) :
    VD V (no_index (Proc.devRef .tc r)) = VC V (Proc.devRef .tc r) := after_of_writes_sub sD _ sD_writes h

/-- What the buffers hold after the fifth, from contents `V`. -/
def VE (V : Valuation τ sig (Elt F)) : Valuation τ sig (Elt F) := after sE (VD V)
/-- A buffer `sE` does not write holds what it held before it. -/
theorem VE_keep (V : Valuation τ sig (Elt F)) {r : Ref sig .tc} (h : r ∉ sE_W) :
    VE V (no_index (Proc.devRef .tc r)) = VD V (Proc.devRef .tc r) := after_of_writes_sub sE _ sE_writes h

/-- What the buffers hold after the sixth, from contents `V`. -/
def VF (V : Valuation τ sig (Elt F)) : Valuation τ sig (Elt F) := after sF (VE V)
/-- A buffer `sF` does not write holds what it held before it. -/
theorem VF_keep (V : Valuation τ sig (Elt F)) {r : Ref sig .tc} (h : r ∉ sF_W) :
    VF V (no_index (Proc.devRef .tc r)) = VE V (Proc.devRef .tc r) := after_of_writes_sub sF _ sF_writes h

/-- What the buffers hold after the seventh, from contents `V`. -/
def VG (V : Valuation τ sig (Elt F)) : Valuation τ sig (Elt F) := after sG (VF V)
/-- A buffer `sG` does not write holds what it held before it. -/
theorem VG_keep (V : Valuation τ sig (Elt F)) {r : Ref sig .tc} (h : r ∉ sG_W) :
    VG V (no_index (Proc.devRef .tc r)) = VF V (Proc.devRef .tc r) := after_of_writes_sub sG _ sG_writes h

/-- What the buffers hold after the eighth, from contents `V`. -/
def VH (V : Valuation τ sig (Elt F)) : Valuation τ sig (Elt F) := after sH (VG V)
/-- A buffer `sH` does not write holds what it held before it. -/
theorem VH_keep (V : Valuation τ sig (Elt F)) {r : Ref sig .tc} (h : r ∉ sH_W) :
    VH V (no_index (Proc.devRef .tc r)) = VG V (Proc.devRef .tc r) := after_of_writes_sub sH _ sH_writes h

/-- What the buffers hold after the ninth, from contents `V`. -/
def VI (V : Valuation τ sig (Elt F)) : Valuation τ sig (Elt F) := after sI (VH V)
/-- A buffer `sI` does not write holds what it held before it. -/
theorem VI_keep (V : Valuation τ sig (Elt F)) {r : Ref sig .tc} (h : r ∉ sI_W) :
    VI V (no_index (Proc.devRef .tc r)) = VH V (Proc.devRef .tc r) := after_of_writes_sub sI _ sI_writes h

/-- What the buffers hold after the tenth, from contents `V`. -/
def VJ (V : Valuation τ sig (Elt F)) : Valuation τ sig (Elt F) := after sJ (VI V)
/-- A buffer `sJ` does not write holds what it held before it. -/
theorem VJ_keep (V : Valuation τ sig (Elt F)) {r : Ref sig .tc} (h : r ∉ sJ_W) :
    VJ V (no_index (Proc.devRef .tc r)) = VI V (Proc.devRef .tc r) := after_of_writes_sub sJ _ sJ_writes h

/-- What the buffers hold after the whole line, from contents `V`. -/
def VK (V : Valuation τ sig (Elt F)) : Valuation τ sig (Elt F) := after sK (VJ V)
/-- A buffer `sK` does not write holds what it held before it. -/
theorem VK_keep (V : Valuation τ sig (Elt F)) {r : Ref sig .tc} (h : r ∉ sK_W) :
    VK V (no_index (Proc.devRef .tc r)) = VJ V (Proc.devRef .tc r) := after_of_writes_sub sK _ sK_writes h

/-- The whole line's final contents are the last stretch's. -/
theorem after_ops (V : Valuation τ sig (Elt F)) : after ops V = VK V := by
  rw [ops_eq]; simp only [after_app]; rfl

/-! ## The stages -/

/-- The biased neighbour sum: the weighted neighbour sum of the feature product, plus the bias in every row. -/
def pre (V : Valuation τ sig (Elt F)) : (⟨S100000x128, .f32⟩ : BufTy).Contents (Elt F) :=
  addf (Shared.agg (Host.dotGeneral dot_S100000x128_S128x128_S100000x128_1_0_0_1_n_n none (V (Proc.devRef .tc main_arg0)) (V (Proc.devRef .tc main_arg2))) (V (Proc.devRef .tc main_arg1))) (Shared.rowB (V (Proc.devRef .tc main_arg3)))

theorem VA_v0 (V : Valuation τ sig (Elt F)) : VA V (no_index (Proc.devRef .tc main_v0)) = iotaInDim S100000 32 0 := by
  unfold VA; simp only [sA]; after_results_simp

theorem VA_v2 (V : Valuation τ sig (Elt F)) : VA V (no_index (Proc.devRef .tc main_v2)) = shapeCast _ (extractStridedSlice S1x600000 ![0, 0] (V (Proc.devRef .tc main_arg1)) slices_S2x600000_S1x600000_0_0) shapeCasts_S1x600000_S600000 := by
  unfold VA; simp only [sA]; after_results_simp; rfl

/-- The source ids: the concatenation's two operands are the first stretch's two results. -/
theorem VB_v3 (V : Valuation τ sig (Elt F)) : VB V (no_index (Proc.devRef .tc main_v3)) = Shared.ids0 (V (Proc.devRef .tc main_arg1)) := by
  unfold VB; simp only [sB]; after_results_simp
  exact congrArg₂ (fun a b => concatenate S700000 0 [⟨S600000, a⟩, ⟨S100000, b⟩] concatenates_S600000_S100000_S700000_d0) (VA_v2 V) (VA_v0 V)

theorem VB_v5 (V : Valuation τ sig (Elt F)) : VB V (no_index (Proc.devRef .tc main_v5)) = shapeCast _ (extractStridedSlice S1x600000 ![1, 0] (V (Proc.devRef .tc main_arg1)) slices_S2x600000_S1x600000_1_0) shapeCasts_S1x600000_S600000 := by
  unfold VB; simp only [sB]; after_results_simp
  simp (disch := decide) only [VA_keep]
  rfl

theorem VB_v0 (V : Valuation τ sig (Elt F)) : VB V (no_index (Proc.devRef .tc main_v0)) = iotaInDim S100000 32 0 :=
  (VB_keep V (by decide)).trans (VA_v0 V)
/-- The target ids, as the third stretch's first operation leaves them. -/
theorem catB (V : Valuation τ sig (Elt F)) :
    (concatenate S700000 0 [⟨S600000, VB V (Proc.devRef .tc main_v5)⟩, ⟨S100000, VB V (Proc.devRef .tc main_v0)⟩] concatenates_S600000_S100000_S700000_d0 : (⟨S700000, .i32⟩ : BufTy).Contents (Elt F))
      = Shared.ids1 (V (Proc.devRef .tc main_arg1)) :=
  congrArg₂ (fun a b => concatenate S700000 0 [⟨S600000, a⟩, ⟨S100000, b⟩] concatenates_S600000_S100000_S700000_d0) (VB_v5 V) (VB_v0 V)
theorem VC_v6 (V : Valuation τ sig (Elt F)) : VC V (no_index (Proc.devRef .tc main_v6)) = Shared.ids1 (V (Proc.devRef .tc main_arg1)) := by
  unfold VC; simp only [sC]; after_results_simp
  exact catB V

theorem VC_v14 (V : Valuation τ sig (Elt F)) : VC V (no_index (Proc.devRef .tc main_v14)) = Shared.dinv (V (Proc.devRef .tc main_arg1)) := by
  unfold VC; simp only [sC]; after_results_simp
  simp only [TRef.toBuf, TRef.ofBuf, cast_eq, catB]
  rfl

theorem VD_v21 (V : Valuation τ sig (Elt F)) : VD V (no_index (Proc.devRef .tc main_v21)) = Host.gather gather_S100000_S700000x1_S700000_n_0_n_n_0_1_1 (Shared.dinv (V (Proc.devRef .tc main_arg1))) (Shared.col (Shared.wrap (Shared.ids0 (V (Proc.devRef .tc main_arg1))))) := by
  unfold VD; simp only [sD]; after_results_simp
  simp (disch := decide) only [VC_keep, VB_keep, VA_keep, VC_v14, VB_v3]
  rfl

theorem VE_v29 (V : Valuation τ sig (Elt F)) : VE V (no_index (Proc.devRef .tc main_v29)) = Shared.norm (V (Proc.devRef .tc main_arg1)) := by
  unfold VE; simp only [sE]; after_results_simp
  simp (disch := decide) only [VD_keep, VC_keep, VB_keep, VA_keep, VD_v21, VC_v14, VC_v6]
  rfl

theorem VF_v37 (V : Valuation τ sig (Elt F)) : VF V (no_index (Proc.devRef .tc main_v37)) = Host.gather gather_S100000x128_S700000x1_S700000x128_1_0_n_n_0_1_1128 (Host.dotGeneral dot_S100000x128_S128x128_S100000x128_1_0_0_1_n_n none (V (Proc.devRef .tc main_arg0)) (V (Proc.devRef .tc main_arg2))) (Shared.col (Shared.wrap (Shared.ids0 (V (Proc.devRef .tc main_arg1))))) := by
  unfold VF; simp only [sF]; after_results_simp
  simp (disch := decide) only [VE_keep, VD_keep, VC_keep, VB_keep, VA_keep, VB_v3]
  rfl

theorem VG_v43 (V : Valuation τ sig (Elt F)) : VG V (no_index (Proc.devRef .tc main_v43)) = Shared.agg (Host.dotGeneral dot_S100000x128_S128x128_S100000x128_1_0_0_1_n_n none (V (Proc.devRef .tc main_arg0)) (V (Proc.devRef .tc main_arg2))) (V (Proc.devRef .tc main_arg1)) := by
  unfold VG; simp only [sG]; after_results_simp
  simp (disch := decide) only [VF_keep, VE_keep, VD_keep, VC_keep, VB_keep, VA_keep, VF_v37, VE_v29, VC_v6]
  rfl

theorem VH_v46 (V : Valuation τ sig (Elt F)) : VH V (no_index (Proc.devRef .tc main_v46)) = pre V := by
  unfold VH; simp only [sH]; after_results_simp
  simp (disch := decide) only [VG_keep, VF_keep, VE_keep, VD_keep, VC_keep, VB_keep, VA_keep, VG_v43]
  rfl

theorem VH_v49 (V : Valuation τ sig (Elt F)) : VH V (no_index (Proc.devRef .tc main_v49)) = Shared.refMean (pre V) := by
  unfold VH; simp only [sH]; after_results_simp
  simp (disch := decide) only [VG_keep, VF_keep, VE_keep, VD_keep, VC_keep, VB_keep, VA_keep, VG_v43]
  rfl

theorem VI_v56 (V : Valuation τ sig (Elt F)) : VI V (no_index (Proc.devRef .tc main_v56)) = Shared.refVar (pre V) := by
  unfold VI; simp only [sI]; after_results_simp
  simp (disch := decide) only [VH_keep, VG_keep, VF_keep, VE_keep, VD_keep, VC_keep, VB_keep, VA_keep, VH_v46, VH_v49]
  rfl

theorem VJ_v62 (V : Valuation τ sig (Elt F)) : VJ V (no_index (Proc.devRef .tc main_v62)) = mulf (Shared.rowB (V (Proc.devRef .tc main_arg4))) (subf (pre V) (Shared.rowB (Shared.refMean (pre V)))) := by
  unfold VJ; simp only [sJ]; after_results_simp
  simp (disch := decide) only [VI_keep, VH_keep, VG_keep, VF_keep, VE_keep, VD_keep, VC_keep, VB_keep, VA_keep, VH_v46, VH_v49]
  rfl

theorem VK_v72 (V : Valuation τ sig (Elt F)) : VK V (no_index (Proc.devRef .tc main_v72)) = Shared.refAll (V (Proc.devRef .tc main_arg0)) (V (Proc.devRef .tc main_arg1)) (V (Proc.devRef .tc main_arg2)) (V (Proc.devRef .tc main_arg3)) (V (Proc.devRef .tc main_arg4)) (V (Proc.devRef .tc main_arg5)) := by
  unfold VK; simp only [sK]; after_results_simp
  simp only [TRef.toBuf, TRef.ofBuf, cast_eq]
  simp (disch := decide) only [VJ_keep, VI_keep, VH_keep, VG_keep, VF_keep, VE_keep, VD_keep, VC_keep, VB_keep, VA_keep, VJ_v62, VI_v56]
  rfl

/-! ## The run -/

/-- On every device, for any float values, from any memory with zero counters: every weakly fair execution of the
    reference terminates with its result array at the reference function of the six arguments' launch contents, and
    the arguments unchanged. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v72) = Cert.Shared.refAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v72).trans ((congrFun (after_ops _) _).trans (VK_v72 _)),
      (h c main_arg0).trans (ops_keep _ main_arg0 (by decide)),
      (h c main_arg1).trans (ops_keep _ main_arg1 (by decide)),
      (h c main_arg2).trans (ops_keep _ main_arg2 (by decide)),
      (h c main_arg3).trans (ops_keep _ main_arg3 (by decide)),
      (h c main_arg4).trans (ops_keep _ main_arg4 (by decide)),
      (h c main_arg5).trans (ops_keep _ main_arg5 (by decide))⟩)
    (run_seq scopedRefs_eq scopedSems_eq defs main (fun _ => ops) main_eq (fun _ => ops_sub) m ρ)

end Cert.RefRun

end
-- ==== Proof.PreFinite.lean ====
/-
  From "the finiteness predicate holds" to "the float inputs are real numbers", at the instance whose floats are extended reals.

  The predicate takes each float array v, forms |v| entrywise, compares it strictly below the word 0x7F800000 (which
  denotes +infinity) entrywise, takes the conjunction of all those bits, and finally the conjunction over the five arrays.
  On the extended reals |a| is max a (-a). If max a (-a) < +infinity then a is neither +infinity (max would be +infinity)
  nor -infinity (its negation is +infinity), so a is a real number. Read backwards through the two conjunctions, the
  hypothesis that the predicate is 1 therefore makes every entry of every float array a real number.
-/
import proofs.«127498_j87368224735831_2_alg».proof.Pre_finite_inputs
import proofs.«127498_j87368224735831_2_alg».proof.Proof.Gen.Pre_finite_inputs
import proofs.«127498_j87368224735831_2_alg».proof.Proof.Spec
import Idealize.ShloMosaic.PureOps.Ideal
import Idealize.ShloMosaic.Lib.ValueIdx
import Idealize.ShloMosaic.Lib.ReduceAll
import Idealize.ShloMosaic.Lib.Pipeline.Value

noncomputable section

namespace Cert.PreFinite

open Idealize.ShloMosaic Cert.Pre_finite_inputs Cert.Spec

/-- The single-precision word with all exponent bits set and no fraction denotes +infinity. -/
theorem inf_eq_top : Ideal.ofBits .f32 0x7F800000#32 = (⊤ : EReal) := by
  simp [Ideal.ofBits, Ideal.ieee]

/-- If |a| = max a (-a) compares strictly below +infinity, then a is a real number: a = +infinity gives max = +infinity,
    and a = -infinity gives -a = +infinity, so again max = +infinity. -/
theorem isReal_of_abs_lt_top (a : EReal) (h : Ideal.cmp .olt (max a (-a)) ⊤ = 1#1) : IsReal a := by
  have hlt : max a (-a) < (⊤ : EReal) := by
    by_contra hn
    simp [Ideal.cmp, hn] at h
  induction a using EReal.rec with
  | bot => simp at hlt
  | top => simp at hlt
  | coe r => exact ⟨r, rfl⟩

/-- The scalar shape has exactly one index. -/
instance : Subsingleton S_.Idx := ⟨fun a b => funext fun d => d.elim0⟩

/-- A conjunction of two arrays of bits, read at an index. -/
theorem andi_apply {s : Shape} {n : Nat} (p q : IVec s n) (i : s.Idx) : andi p q i = IntOp.andi (p i) (q i) := rfl

/-- One array: if the conjunction over all entries of "|v| < +infinity" is 1, every entry of v is a real number. -/
theorem real_of_all {s : Shape} {axes : List (Fin s.rank)} (v : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf v) (broadcastInDim s ![] hb (constant (F := Ideal) S_ .f32 0x7F800000#32)))
          init hr hu j = 1#1)
    (i : s.Idx) : IsReal (v i) := by
  have h1 := Host.reduce_andi_all _ init hr hu j e i
  rw [ValueIdx.cmpf_apply] at h1
  have hbc : broadcastInDim s ![] hb (constant (F := Ideal) S_ .f32 0x7F800000#32) i = (⊤ : EReal) := by
    rw [broadcastInDim_apply ![] hb _ i ValueIdx.ix0 (fun a => a.elim0), ValueIdx.constant_apply, inf_eq_top]
  rw [hbc] at h1
  exact isReal_of_abs_lt_top (v i) h1

/-- The finiteness predicate being 1 makes every entry of every float input a real number. -/
theorem finite_of_pre [Cert.Pre_finite_inputs.Facts] (x : FVec Ideal S100000x128 .f32) (e : IVec S2x600000 32)
    (w : FVec Ideal S128x128 .f32) (b g be : FVec Ideal S128 .f32)
    (h : Cert.Pre_finite_inputs.fn (F := Ideal) x e w b g be = fun _ => 1#1) :
    (∀ i, IsReal (x i)) ∧ (∀ i, IsReal (w i)) ∧ (∀ i, IsReal (b i)) ∧ (∀ i, IsReal (g i)) ∧ (∀ i, IsReal (be i)) := by
  have h0 := congrFun h ValueIdx.ix0
  dsimp only [fn, fn_part1] at h0
  simp only [andi_apply, IntOp.andi_eq_one] at h0
  obtain ⟨⟨⟨⟨hx, hw⟩, hb⟩, hg⟩, hbe⟩ := h0
  exact ⟨real_of_all x _ _ _ _ _ hx, real_of_all w _ _ _ _ _ hw, real_of_all b _ _ _ _ _ hb,
    real_of_all g _ _ _ _ _ hg, real_of_all be _ _ _ _ _ hbe⟩

end Cert.PreFinite

end
-- ==== Proof.lean ====
/-
  The certificate of a graph-convolution layer followed by batch normalisation and a rectifier.

  Both programs first build, on the host, the edge lists with self loops, the in-degrees, the per-edge weights
  deg^(-1/2)[src] · deg^(-1/2)[dst], and after the dense transform h = x · W the weighted neighbour sum
  agg[d] = Σ_{edges into d} h[src] · weight. The kernel computes h in 50 row tiles on the matrix unit, then in a
  second tiled pass the column sums of (agg + b) and of its square, from which the host forms the mean and the
  variance as max (E[a²] − E[a]², 0), and in a third tiled pass applies gamma · (a − mean) · rsqrt (var + eps) + beta
  clamped below at zero. The reference computes the variance as the mean of squared deviations. On the extended
  reals the two agree when every entry of a is a real number, which follows from the inputs being finite; sums
  may be taken in any order and grouping, and a change of float format is the identity.

  The three frames are the programs' runs with the results dropped; no rewrite was recorded between the kernel
  and its idealization; the value claim pairs the kernel's run, its result read back region by region, with the
  reference's run read back operation by operation.
-/
import proofs.«127498_j87368224735831_2_alg».proof.Defs
import proofs.«127498_j87368224735831_2_alg».proof.Proof.Gen.Kernel
import proofs.«127498_j87368224735831_2_alg».proof.Proof.Gen.Kernel.Skeleton
import proofs.«127498_j87368224735831_2_alg».proof.Proof.Gen.Kernel.Launch
import proofs.«127498_j87368224735831_2_alg».proof.Proof.Gen.Kernel.Points
import proofs.«127498_j87368224735831_2_alg».proof.Proof.Gen.Kernel.Frame
import proofs.«127498_j87368224735831_2_alg».proof.Proof.Gen.KernelIdeal
import proofs.«127498_j87368224735831_2_alg».proof.Proof.Gen.KernelIdeal.Skeleton
import proofs.«127498_j87368224735831_2_alg».proof.Proof.Gen.KernelIdeal.Launch
import proofs.«127498_j87368224735831_2_alg».proof.Proof.Gen.KernelIdeal.Points
import proofs.«127498_j87368224735831_2_alg».proof.Proof.Gen.KernelIdeal.Frame
import proofs.«127498_j87368224735831_2_alg».proof.Proof.Gen.ReferenceIdeal
import proofs.«127498_j87368224735831_2_alg».proof.Proof.Gen.Pre_finite_inputs
import proofs.«127498_j87368224735831_2_alg».proof.Proof.KernelRun
import proofs.«127498_j87368224735831_2_alg».proof.Proof.KernelValue
import proofs.«127498_j87368224735831_2_alg».proof.Proof.RefRun
import proofs.«127498_j87368224735831_2_alg».proof.Proof.PreFinite
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run with the result dropped. -/
theorem frame_referenceIdeal : Cert.frame_ReferenceIdeal := fun m ρ _ =>
  (θ_run Cert.ReferenceIdeal.defs _ _).mono (fun _ h c => (h c).2) (Cert.RefRun.run (F := Ideal) m ρ)

/-- At the ideal instance, from memories agreeing on the arguments, both programs end with the reference's function
    of the arguments in their result buffers. -/
theorem algebraic : Cert.algebraic_KernelIdeal_ReferenceIdeal := by
  intro m ρ m' ρ' hpre hagree
  refine ⟨fun c => Cert.Shared.refAll (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5)), ?_, ?_⟩
  · refine (θ_run Cert.KernelIdeal.defs _ _).mono (fun _ h c => ⟨(h c).1.trans ?_, (h c).2⟩)
      (Cert.KernelIdeal.Named.run (F := Ideal) m ρ)
    obtain ⟨hx, hw, hb, -, -⟩ := Cert.PreFinite.finite_of_pre _ _ _ _ _ _ (hpre c)
    exact Cert.KernelIdeal.Value.result m ρ c hx hw hb
  · refine (θ_run Cert.ReferenceIdeal.defs _ _).mono (fun _ h c => ⟨(h c).1.trans ?_, (h c).2⟩)
      (Cert.RefRun.run (F := Ideal) m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
